-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S2x800000 32) (main_arg1 : FVec F S50000x128 .f32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 45
  | .vmem => 7
  | .smem => 0
  | _ => 0

abbrev bufTy : (tb : Table) → Fin (tcTables nBuf tb) → BufTy
  | .hbm, ⟨0, _⟩ => ⟨S2x800000, .i32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S50000x1, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S2x800000, .i32⟩
  | 1 => ⟨S50000x128, .f32⟩
  | 2 => ⟨S128x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S50000x128, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x800000, .i32⟩
  | 73 => ⟨S800000, .i32⟩
  | 74 => ⟨S1x800000, .i32⟩
  | 75 => ⟨S800000, .i32⟩
  | 76 => ⟨S50000, .i32⟩
  | 77 => ⟨S850000, .i32⟩
  | 78 => ⟨S850000, .i32⟩
  | 79 => ⟨S50000x64, .f32⟩
  | 80 => ⟨S_, .f32⟩
  | 81 => ⟨S850000, .f32⟩
  | 82 => ⟨S_, .f32⟩
  | 83 => ⟨S50000, .f32⟩
  | 84 => ⟨S850000x1, .i32⟩
  | 85 => ⟨S50000, .f32⟩
  | 86 => ⟨S_, .f32⟩
  | 87 => ⟨S50000, .f32⟩
  | 88 => ⟨S50000, .i1⟩
  | 89 => ⟨S_, .f32⟩
  | 90 => ⟨S50000, .f32⟩
  | 91 => ⟨S50000, .f32⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000, .f32⟩
  | 115 => ⟨S850000, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x64, .f32⟩
  | 125 => ⟨S850000x1, .f32⟩
  | 126 => ⟨S850000x64, .f32⟩
  | 127 => ⟨S850000x64, .f32⟩
  | _ => ⟨S2x800000, .i32⟩

abbrev hbmTy0_1 (i : Nat) : BufTy := match i % 128 with
  | 0 => ⟨S_, .f32⟩
  | 1 => ⟨S50000x64, .f32⟩
  | 2 => ⟨S850000x1, .i32⟩
  | 3 => ⟨S50000x64, .f32⟩
  | 4 => ⟨S1x64, .f32⟩
  | 5 => ⟨S50000x64, .f32⟩
  | 6 => ⟨S50000x64, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.LibSegment.lean ====
/-
  Segment sums and row look-ups, read at an entry, for any sizes.

  A graph layer moves rows around by integer tables: a look-up takes row `idx[e]` of an array for every entry `e` of the
  table (the start index read as a signed integer and clamped into the array), and a segment sum adds update `e` into row
  `idx[e]` of an accumulator (the index read signed and NOT clamped: an update whose index is outside the array is
  dropped). Both are read here at one entry, for a table stored as an `M × 1` column: the look-up of a vector or of a
  matrix's rows is the operand at the clamped index, and the accumulated array at `c` is the old value plus the sum, over
  the table's entries `e` whose index is exactly `c`, of update `e`.
-/
import Idealize.ShloMosaic.Lib.ValueIdx
import Idealize.ShloMosaic.Lib.Pipeline.Value
import Idealize.ShloMosaic.PureOps.Ideal.Laws

noncomputable section

open scoped BigOperators

namespace Cert.Lib.Segment

open Idealize.ShloMosaic Idealize.ShloMosaic.ValueIdx

/-! ## Sums over a one-axis index set -/

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : ℕ} (f : (⟨1, ![n]⟩ : Shape).Idx → A) :
    ∑ i, f i = ∑ a : Fin n, f (ix1 a) := by
  rw [← Equiv.sum_comp (idxEquiv1 (n := n)).symm f]
  rfl

/-! ## One row of a table as a vector -/

/-- Row `r` of an `R × M` table, sliced out as a `1 × M` array and flattened, reads at `e` the table's entry `(r, e)`. -/
theorem tableRow_apply {α : Type} {R M : ℕ} (x : (⟨2, ![R, M]⟩ : Shape).Idx → α) (r : Fin R) (off : Fin 2 → ℕ)
    (h0 : off 0 = r.val) (h1 : off 1 = 0) (h : (⟨2, ![R, M]⟩ : Shape).Slices off ⟨2, ![1, M]⟩)
    (h' : (⟨2, ![1, M]⟩ : Shape).ShapeCasts ⟨1, ![M]⟩) (e : Fin M) :
    shapeCast ⟨1, ![M]⟩ (extractStridedSlice ⟨2, ![1, M]⟩ off x h) h' (ix1 e) = x (ix2 r e) := by
  rw [shapeCast_apply _ h' (ix1 e) (ix2 (0 : Fin 1) e) (by
    rw [Shape.rowMajor_val_two, Shape.rowMajor_val_one]
    show 0 * M + e.val = e.val
    omega)]
  refine extractStridedSlice_apply off x h _ _ fun a => ?_
  rcases (by decide : ∀ a : Fin 2, a = 0 ∨ a = 1) a with rfl | rfl
  · show r.val = off 0 + 0
    omega
  · show e.val = off 1 + e.val
    omega

/-! ## Where an update lands -/

/-- An update lands on the operand index `i` exactly when, on every axis, its start plus its window coordinate is
    `i`'s coordinate (a landing place outside the operand is no index at all). -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro e a
      have e' := Option.some.inj e
      have := congrFun e' a
      rw [← this]
      show _ = (((d.start j idx a + (d.window j a : ℤ)).toNat : ℕ) : ℤ)
      rw [Int.toNat_of_nonneg (h a).1]
    · intro hi
      congr 1
      funext a
      refine Fin.ext ?_
      show (d.start j idx a + (d.window j a : ℤ)).toNat = (i a).val
      rw [hi a, Int.toNat_natCast]
  · rename_i h
    constructor
    · intro e; exact absurd e (by simp)
    · intro hi
      exact absurd (fun a => by rw [hi a]; exact ⟨Int.natCast_nonneg _, by exact_mod_cast (i a).isLt⟩) h

/-! ## A segment sum into a vector -/

/-- The dimension numbers of `M` scalar updates added into a length-`N` vector at the indices an `M × 1` column names. -/
abbrev scat1 (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem scat1_lands {N M w : ℕ} (wf : ScatterDims.WF ⟨1, ![N]⟩ ⟨2, ![M, 1]⟩ ⟨1, ![M]⟩ [] [0] [0] 1)
    (idx : IVec ⟨2, ![M, 1]⟩ w) (e : Fin M) (c : Fin N) :
    (scat1 N M wf).resultIdx? (ix1 e) idx = some (ix1 c) ↔ (idx (ix2 e (0 : Fin 1))).toInt = (c.val : ℤ) := by
  rw [resultIdx?_eq_some_iff]
  have hsi : (scat1 N M wf).siIdx (ix1 e) ⟨List.idxOf (0 : Fin 1) (scat1 N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have h0 : (scat1 N M wf).start (ix1 e) idx 0 + ((scat1 N M wf).window (ix1 e) 0 : ℤ) = (idx (ix2 e (0 : Fin 1))).toInt := by
    unfold ScatterDims.start ScatterDims.window
    rw [dif_pos (show (0 : Fin 1) ∈ (scat1 N M wf).scatterDimsToOperandDims from List.mem_singleton.mpr rfl),
      dif_neg (show (0 : Fin 1) ∉ (scat1 N M wf).sKept from by simp [Shape.kept]), hsi]
    simp
  constructor
  · intro h; rw [← h0]; exact h 0
  · intro h a
    obtain rfl : a = 0 := Subsingleton.elim _ _
    rw [h0]; exact h

/-- The vector after the segment sum, at `c`: the old entry plus the updates whose index is `c`. -/
theorem scatterAdd_vec_apply {N M w : ℕ} {φ : FTy} (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (scat1 N M wf) x idx upd (ix1 c)
      = x (ix1 c) + ∑ e : Fin M, if (idx (ix2 e (0 : Fin 1))).toInt = (c.val : ℤ) then upd (ix1 e) else 0 := by
  show Ideal.hostScatterAdd (scat1 N M wf) x idx upd (ix1 c) = _
  unfold Ideal.hostScatterAdd
  congr 1
  rw [Finset.sum_filter, sum_idx1]
  refine Finset.sum_congr rfl fun e _ => ?_
  by_cases h : (idx (ix2 e (0 : Fin 1))).toInt = (c.val : ℤ)
  · rw [if_pos h, if_pos ((scat1_lands wf idx e c).mpr h)]
  · rw [if_neg h, if_neg (mt (scat1_lands wf idx e c).mp h)]

/-! ## A segment sum of rows into a matrix -/

/-- The dimension numbers of `M` rows of length `K` added into the rows of an `N × K` matrix that an `M × 1` column names. -/
abbrev scat2 (N K M : ℕ) (wf : ScatterDims.WF ⟨2, ![N, K]⟩ ⟨2, ![M, 1]⟩ ⟨2, ![M, K]⟩ [1] [0] [0] 1) :
    ScatterDims ⟨2, ![N, K]⟩ ⟨2, ![M, 1]⟩ ⟨2, ![M, K]⟩ where
  updateWindowDims := [1]
  insertedWindowDims := [0]
  scatterDimsToOperandDims := [0]
  indexVectorDim := 1
  wf := wf

theorem scat2_lands {N K M w : ℕ} (wf : ScatterDims.WF ⟨2, ![N, K]⟩ ⟨2, ![M, 1]⟩ ⟨2, ![M, K]⟩ [1] [0] [0] 1)
    (idx : IVec ⟨2, ![M, 1]⟩ w) (e : Fin M) (k' : Fin K) (c : Fin N) (k : Fin K) :
    (scat2 N K M wf).resultIdx? (ix2 e k') idx = some (ix2 c k)
      ↔ (idx (ix2 e (0 : Fin 1))).toInt = (c.val : ℤ) ∧ k' = k := by
  rw [resultIdx?_eq_some_iff]
  have hsi : (scat2 N K M wf).siIdx (ix2 e k') ⟨List.idxOf (0 : Fin 2) (scat2 N K M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have h0 : (scat2 N K M wf).start (ix2 e k') idx 0 + ((scat2 N K M wf).window (ix2 e k') 0 : ℤ)
      = (idx (ix2 e (0 : Fin 1))).toInt := by
    unfold ScatterDims.start ScatterDims.window
    rw [dif_pos (show (0 : Fin 2) ∈ (scat2 N K M wf).scatterDimsToOperandDims from List.mem_singleton.mpr rfl),
      dif_neg (show (0 : Fin 2) ∉ (scat2 N K M wf).sKept from by simp [Shape.kept]), hsi]
    simp
  have h1 : (scat2 N K M wf).start (ix2 e k') idx 1 + ((scat2 N K M wf).window (ix2 e k') 1 : ℤ) = (k'.val : ℤ) := by
    unfold ScatterDims.start ScatterDims.window
    rw [dif_neg (show (1 : Fin 2) ∉ (scat2 N K M wf).scatterDimsToOperandDims from by simp),
      dif_pos (show (1 : Fin 2) ∈ (scat2 N K M wf).sKept from by simp [Shape.kept])]
    simp
    rfl
  constructor
  · intro h
    refine ⟨by rw [← h0]; exact h 0, Fin.ext ?_⟩
    have := h 1; rw [h1] at this; exact_mod_cast this
  · rintro ⟨h, rfl⟩ a
    rcases (by decide : ∀ a : Fin 2, a = 0 ∨ a = 1) a with rfl | rfl
    · rw [h0]; exact h
    · exact h1

/-- The matrix after the segment sum, at `(c, k)`: the old entry plus column `k` of the update rows whose index is `c`. -/
theorem scatterAdd_rows_apply {N K M w : ℕ} {φ : FTy}
    (wf : ScatterDims.WF ⟨2, ![N, K]⟩ ⟨2, ![M, 1]⟩ ⟨2, ![M, K]⟩ [1] [0] [0] 1)
    (x : FVec Ideal ⟨2, ![N, K]⟩ φ) (idx : IVec ⟨2, ![M, 1]⟩ w) (upd : FVec Ideal ⟨2, ![M, K]⟩ φ) (c : Fin N) (k : Fin K) :
    Host.scatterAdd (scat2 N K M wf) x idx upd (ix2 c k)
      = x (ix2 c k) + ∑ e : Fin M, if (idx (ix2 e (0 : Fin 1))).toInt = (c.val : ℤ) then upd (ix2 e k) else 0 := by
  show Ideal.hostScatterAdd (scat2 N K M wf) x idx upd (ix2 c k) = _
  unfold Ideal.hostScatterAdd
  congr 1
  rw [Finset.sum_filter, sum_idx2]
  refine Finset.sum_congr rfl fun e _ => ?_
  by_cases h : (idx (ix2 e (0 : Fin 1))).toInt = (c.val : ℤ)
  · rw [if_pos h, Finset.sum_eq_single k]
    · rw [if_pos ((scat2_lands wf idx e k c k).mpr ⟨h, rfl⟩)]
    · intro k' _ hk
      rw [if_neg (fun hl => hk ((scat2_lands wf idx e k' c k).mp hl).2)]
    · intro hk; exact absurd (Finset.mem_univ k) hk
  · rw [if_neg h]
    exact Finset.sum_eq_zero fun k' _ => if_neg (fun hl => h ((scat2_lands wf idx e k' c k).mp hl).1)

/-! ## Look-ups -/

/-- The dimension numbers of a look-up of `M` entries of a length-`N` vector at the indices an `M × 1` column names. -/
abbrev gath1 (N M : ℕ) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The clamped place a signed index word names in an array of `N` rows. -/
def clampIdx {w : ℕ} (N : ℕ) (hN : 0 < N) (v : BitVec w) : Fin N := ⟨min v.toInt.toNat (N - 1), by omega⟩

/-- The look-up in a vector at `e`: the vector at the clamped index. -/
theorem gather_vec_apply {α : Type} {N M w : ℕ} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gath1 N M wf) x idx (ix1 e) = x (ix1 (clampIdx N hN (idx (ix2 e (0 : Fin 1))))) := by
  unfold Host.gather
  congr 1
  funext a
  obtain rfl : a = 0 := Subsingleton.elim _ _
  refine Fin.ext ?_
  show (gath1 N M wf).start (ix1 e) idx 0 + (gath1 N M wf).batchCoord (ix1 e) 0 + (gath1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N M wf).startIndexMap from List.mem_singleton.mpr rfl)]
  have hsi : (gath1 N M wf).siIdx (ix1 e) ⟨List.idxOf (0 : Fin 1) (gath1 N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of a look-up of `M` whole rows of an `N × K` matrix at the indices an `M × 1` column names. -/
abbrev gath2 (N K M : ℕ) (wf : GatherDims.WF ⟨2, ![N, K]⟩ ⟨2, ![M, 1]⟩ ⟨2, ![M, K]⟩ [1] [0] [] [0] [] 1 ![1, K]) :
    GatherDims ⟨2, ![N, K]⟩ ⟨2, ![M, 1]⟩ ⟨2, ![M, K]⟩ where
  offsetDims := [1]
  collapsedSliceDims := [0]
  operandBatchingDims := []
  startIndicesBatchingDims := []
  startIndexMap := [0]
  indexVectorDim := 1
  sliceSizes := ![1, K]
  wf := wf

/-- The look-up of rows at `(e, k)`: the matrix at the clamped row, column `k`. -/
theorem gather_rows_apply {α : Type} {N K M w : ℕ} (hN : 0 < N)
    (wf : GatherDims.WF ⟨2, ![N, K]⟩ ⟨2, ![M, 1]⟩ ⟨2, ![M, K]⟩ [1] [0] [] [0] [] 1 ![1, K])
    (x : (⟨2, ![N, K]⟩ : Shape).Idx → α) (idx : IVec ⟨2, ![M, 1]⟩ w) (e : Fin M) (k : Fin K) :
    Host.gather (gath2 N K M wf) x idx (ix2 e k) = x (ix2 (clampIdx N hN (idx (ix2 e (0 : Fin 1)))) k) := by
  unfold Host.gather
  congr 1
  have hsi : (gath2 N K M wf).siIdx (ix2 e k) ⟨List.idxOf (0 : Fin 2) (gath2 N K M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  funext a
  refine Fin.ext ?_
  show (gath2 N K M wf).start (ix2 e k) idx a + (gath2 N K M wf).batchCoord (ix2 e k) a + (gath2 N K M wf).offCoord (ix2 e k) a = _
  rw [GatherDims.batchCoord_eq_zero _ _ _ List.not_mem_nil]
  rcases (by decide : ∀ a : Fin 2, a = 0 ∨ a = 1) a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N K M wf).startIndexMap from List.mem_singleton.mpr rfl), hsi]
    rfl
  · unfold GatherDims.start GatherDims.offCoord
    rw [dif_neg (show (1 : Fin 2) ∉ (gath2 N K M wf).startIndexMap from by simp),
      dif_pos (show (1 : Fin 2) ∈ (gath2 N K M wf).sKept from by simp [Shape.kept])]
    simp
    rfl

end Cert.Lib.Segment

end
-- ==== Proof.LibRows.lean ====
/-
  Row-by-row readings of two-axis arrays, for any sizes.

  A dense layer with a per-row normalisation touches an `n × b` array one row at a time: a product with a weight
  matrix (entry `(p, c)` is the sum over `q` of row `p` at `q` times the weight at `(q, c)`), a sum along each row,
  a per-row number broadcast back along its row, a per-column vector broadcast down the rows. Each lemma below reads
  one of these operations at an entry `(p, c)`, in the kernel's spelling (matmul into a zero accumulator, a lane
  reduction, vector broadcasts) and in the host's (a reduce with an initial value, broadcast-in-dim).
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.Lib.Rows

open Idealize.ShloMosaic Idealize.ShloMosaic.ValueIdx

variable {α : Type}

/-! ## Products -/

/-- An `m × k` by `k × n` matrix product accumulated into zero reads, at `(a, b)`, the sum over the contracted
    coordinate of the products of the entries: the same sum the host's product of the two matrices is. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Sums along a row -/

/-- The index of an `n × k` array over row `a` with the column `c` put back. -/
theorem lift_row {n k : ℕ} (h : (⟨2, ![n, k]⟩ : Shape).Reduces [1] ⟨1, ![n]⟩) (a : Fin n) (c : Fin k) :
    h.lift (ix1 a) c = ix2 a c := by
  funext ax; apply Fin.ext
  match ax with
  | ⟨0, _⟩ => rfl
  | ⟨1, _⟩ => rfl

/-- A lane reduction of an `n × k` array along its rows reads, at row `a`, the sum of that row. -/
theorem rowSum_apply {n k : ℕ} {φ : FTy} (src : FVec Ideal ⟨2, ![n, k]⟩ φ) (acc : BitVec φ.bits)
    (h : (⟨2, ![n, k]⟩ : Shape).Reduces [1] ⟨1, ![n]⟩) (hφ : FKind.Formats φ) (hacc : acc = FKind.add.neutral φ hφ) (a : Fin n) :
    multiReduction .add [1] ⟨1, ![n]⟩ src acc h hφ hacc (ix1 a) = ∑ c : Fin k, src (ix2 a c) := by
  rw [Ideal.multiReduction_add_single]
  exact Finset.sum_congr rfl fun c _ => congrArg src (lift_row h a c)

/-- The same for an f32 lane sum from the zero word, with the accumulator's side condition spelt as a program prints it
    (the word equal to itself). -/
theorem rowSum_f32_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = 0x00000000#32) (a : Fin n) :
    multiReduction .add [1] ⟨1, ![n]⟩ src 0x00000000#32 h hφ hacc (ix1 a) = ∑ c : Fin k, src (ix2 a c) :=
  rowSum_apply src 0x00000000#32 h hφ hacc a

/-- The exact row sums themselves (what a lane sum denotes on the extended reals), read at row `a`. -/
theorem reduceAdd_rows_apply {n k : ℕ} (x : (⟨2, ![n, k]⟩ : Shape).Idx → EReal)
    (h : (⟨2, ![n, k]⟩ : Shape).Reduces [1] ⟨1, ![n]⟩) (a : Fin n) :
    Ideal.reduceAdd h x (ix1 a) = ∑ c : Fin k, x (ix2 a c) := by
  rw [Ideal.reduceAdd_single]
  exact Finset.sum_congr rfl fun c _ => congrArg x (lift_row h a c)

/-- The host's exact row sums from an initial value, read at row `a`. -/
theorem hostReduceAdd_rows_apply {n k : ℕ} (x : (⟨2, ![n, k]⟩ : Shape).Idx → EReal) (init : EReal)
    (h' : (⟨2, ![n, k]⟩ : Shape).ReducesTo [1] ⟨1, ![n]⟩)
    (h : (⟨2, ![n, k]⟩ : Shape).Reduces [1] ⟨1, ![n]⟩) (a : Fin n) :
    Ideal.hostReduceAdd h' x init (ix1 a) = init + ∑ c : Fin k, x (ix2 a c) := by
  rw [Ideal.hostReduceAdd_single h' h]
  exact congrArg (init + ·) (Finset.sum_congr rfl fun c _ => congrArg x (lift_row h a c))

/-- The host's sum of an `n × k` array along its rows reads, at row `a`, the initial value plus the sum of that row. -/
theorem hostRowSum_apply {n k : ℕ} {φ : FTy} {u : Shape} (x : FVec Ideal ⟨2, ![n, k]⟩ φ) (init : u.Idx → Ideal φ)
    (h' : (⟨2, ![n, k]⟩ : Shape).ReducesTo [1] ⟨1, ![n]⟩) (hu : 0 < u.numel)
    (h : (⟨2, ![n, k]⟩ : Shape).Reduces [1] ⟨1, ![n]⟩) (a : Fin n) :
    Host.reduceAdd x init h' hu (ix1 a) = init (Shape.Idx.first hu) + ∑ c : Fin k, x (ix2 a c) := by
  show Ideal.hostReduceAdd h' x (init (Shape.Idx.first hu)) (ix1 a) = _
  rw [Ideal.hostReduceAdd_single h' h]
  exact congrArg (init (Shape.Idx.first hu) + ·) (Finset.sum_congr rfl fun c _ => congrArg x (lift_row h a c))

/-! ## A per-row number broadcast along its row -/

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's spelling of the same: an `a × 1` column broadcast in place (axes kept) to `a × b`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A per-column vector broadcast down the rows -/

/-- The host's spelling of one row over many: a `1 × b` row broadcast in place to `a × b` reads, at `(p, c)`, the row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-`b` vector made a `1 × b` row by a broadcast along a new leading axis reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A scalar broadcast to any shape reads the scalar everywhere. -/
theorem broadcastInDim_scalar_apply {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

end Cert.Lib.Rows

end
-- ==== Proof.LibColumnStack.lean ====
/-
  Layout facts about COLUMNS, for any element type and any sizes.

  A length-`n` array made into an `n × 1` column — by a reshape, or by a broadcast along a new unit axis — keeps
  entry `r` at `(r, 0)`; and an `n × K` array assembled by joining `K` such columns side by side (a concatenation
  along the second axis) holds, in column `k`, the `k`-th of them. Together they read "stack K vectors as the columns
  of a matrix" at an index, whichever way a program spells the stack: entry `(r, k)` is the `k`-th vector at `r`.
-/
import Idealize.ShloMosaic.Lib.Pipeline.Value
import Idealize.ShloMosaic.Lib.ValueIdx

noncomputable section

namespace Cert.Lib.ColumnStack

open Idealize.ShloMosaic Idealize.ShloMosaic.ValueIdx

variable {α : Type}

/-- The row an index of an `n × K` array lies in, as an index of a length-`n` array. -/
abbrev rowOf {n K : ℕ} (j : (⟨2, ![n, K]⟩ : Shape).Idx) : (⟨1, ![n]⟩ : Shape).Idx := ix1 ⟨(j 0).val, idx2_lt0 j⟩
/-- The column an index of an `n × K` array lies in. -/
abbrev colOf {n K : ℕ} (j : (⟨2, ![n, K]⟩ : Shape).Idx) : Fin K := ⟨(j 1).val, idx2_lt1 j⟩

/-- The `q`-th of sixteen things. -/
def nth16 {β : Type} (c0 c1 c2 c3 c4 c5 c6 c7 c8 c9 c10 c11 c12 c13 c14 c15 : β) (q : Fin 16) : β :=
  match q with
  | ⟨0, _⟩ => c0 | ⟨1, _⟩ => c1 | ⟨2, _⟩ => c2 | ⟨3, _⟩ => c3
  | ⟨4, _⟩ => c4 | ⟨5, _⟩ => c5 | ⟨6, _⟩ => c6 | ⟨7, _⟩ => c7
  | ⟨8, _⟩ => c8 | ⟨9, _⟩ => c9 | ⟨10, _⟩ => c10 | ⟨11, _⟩ => c11
  | ⟨12, _⟩ => c12 | ⟨13, _⟩ => c13 | ⟨14, _⟩ => c14 | ⟨15, _⟩ => c15
  | ⟨n + 16, h⟩ => absurd h (by omega)

/-- A length-`n` array RESHAPED to an `n × 1` column reads, at an index `j`, the array at `j`'s row: in row-major
    order entry `(r, 0)` of the column and entry `r` of the array are both the `r`-th. -/
theorem shapeCast_column_apply {n : ℕ} (x : (⟨1, ![n]⟩ : Shape).Idx → α)
    (h : (⟨1, ![n]⟩ : Shape).ShapeCasts ⟨2, ![n, 1]⟩) (j : (⟨2, ![n, 1]⟩ : Shape).Idx) :
    shapeCast ⟨2, ![n, 1]⟩ x h j = x (rowOf j) :=
  shapeCast_apply x h j _ (by
    have h1 : (j 1).val < 1 := idx2_lt1 j
    rw [Shape.rowMajor_val_two, Shape.rowMajor_val_one]
    show (j 0).val = (j 0).val * 1 + (j 1).val
    omega)

/-- A length-`n` array BROADCAST to an `n × 1` column (its one axis sent to the first axis of the result) reads, at
    an index `j`, the array at `j`'s row. -/
theorem broadcastInDim_column_apply {n : ℕ} (x : (⟨1, ![n]⟩ : Shape).Idx → α) (dims : Fin 1 → Fin 2) (hd : dims 0 = 0)
    (h : (⟨1, ![n]⟩ : Shape).BroadcastsInDim ⟨2, ![n, 1]⟩ dims) (j : (⟨2, ![n, 1]⟩ : Shape).Idx) :
    broadcastInDim ⟨2, ![n, 1]⟩ dims h x j = x (rowOf j) :=
  broadcastInDim_apply dims h x j _ (fun a => by
    match a with
    | ⟨0, _⟩ =>
      show (j 0).val = if n = 1 then 0 else (j (dims 0)).val
      rw [hd]
      split
      · have := idx2_lt0 j; omega
      · rfl)

/-- COLUMNS SIDE BY SIDE: `K` columns of height `n` (column `k` is `f k`) joined along the second axis into an
    `n × K` array; entry `j` of the array is column `colOf j` at `j`'s row. -/
theorem concatenate_columns_apply {n K : ℕ} (f : Fin K → ((⟨2, ![n, 1]⟩ : Shape).Idx → α))
    (h : Shape.Concatenates ((List.ofFn fun k : Fin K =>
        (⟨⟨2, ![n, 1]⟩, f k⟩ : (s : Shape) × (s.Idx → α))).map (·.1)) ⟨2, ![n, K]⟩ 1)
    (j : (⟨2, ![n, K]⟩ : Shape).Idx) :
    concatenate ⟨2, ![n, K]⟩ 1 (List.ofFn fun k : Fin K => (⟨⟨2, ![n, 1]⟩, f k⟩ : (s : Shape) × (s.Idx → α))) h j
      = f (colOf j) (ix2 ⟨(j 0).val, idx2_lt0 j⟩ (0 : Fin 1)) :=
  concatenate_ofFn_unit_apply (t := ⟨2, ![n, K]⟩) (s₁ := ⟨2, ![n, 1]⟩) (1 : Fin 2) f h rfl rfl j (colOf j) rfl
    (ix2 ⟨(j 0).val, idx2_lt0 j⟩ (0 : Fin 1))
    (fun b hb => by
      match b with
      | ⟨0, _⟩ => rfl
      | ⟨1, _⟩ => exact absurd rfl hb)

end Cert.Lib.ColumnStack

end
-- ==== Proof.GcnSpec.lean ====
/-
  One graph-convolution layer, entry by entry, and the algebra that joins its two arrangements.

  Nodes `c` carry feature rows; every edge `e` names a source and a target node by signed index words. A word names a node
  the way an array look-up reads it: a negative word counts from the end (50000 is added), and the result is clamped
  into `[0, 49999]`. A target word, though, receives a message only when it is exactly a node number.
  With `cnt c` the number of edges whose target is `c`, the node's weight is `d c = 1 / sqrt (max (1 + cnt c) 1)` (the `1` is the
  node's own loop), the projected features are `xw c k = ∑ q, x c q · W q k`, and the layer's output is

      out c k = d c · ( ∑_{e : target e = c} d (src e) · xw (src e) k  +  d c · xw c k ) + b k.

  The other arrangement gives every message, loops included, its own coefficient `d (src) · d (tgt)` and adds them all:
  the two agree because `d c` is a finite non-negative number, and multiplying by such a number distributes over any sum
  of extended reals.
-/
import Idealize.ShloMosaic.Lib.ValueIdx
import Idealize.ShloMosaic.PureOps.Ideal.Laws
import proofs.«160902_j66520453480545_2_alg».proof.Proof.LibSegment

noncomputable section

open scoped BigOperators

namespace Cert.Gcn

open Idealize.ShloMosaic Idealize.ShloMosaic.ValueIdx Cert.Lib.Segment

/-- The bit pattern of the float one. -/
theorem ofBits_one : Ideal.ofBits .f32 0x3F800000#32 = 1 := by
  simp [Ideal.ofBits, Ideal.ieee]
  rw [← EReal.coe_mul]
  norm_num

/-! ## Words and nodes -/

/-- A negative index word counts from the end of the 50000 nodes. -/
def wrapW (v : BitVec 32) : BitVec 32 := Scalar.select (IntOp.cmpi .slt v 0#32) (IntOp.addi v 50000#32) v

/-- The node a look-up reads for an index word: wrapped, then clamped into range. -/
def nodeOf (v : BitVec 32) : Fin 50000 := clampIdx 50000 (by decide) (wrapW v)

/-- A word that is exactly a node number names that node. -/
theorem nodeOf_of_toInt {v : BitVec 32} {c : Fin 50000} (h : v.toInt = (c.val : ℤ)) : nodeOf v = c := by
  have hc := c.isLt
  have hs : ¬ (v.slt 0#32) = true := by
    rw [BitVec.slt_eq_decide]
    simp only [BitVec.toInt_zero, decide_eq_true_eq, not_lt]
    omega
  have hw : wrapW v = v := by
    unfold wrapW Scalar.select IntOp.cmpi
    simp only [hs]
    rfl
  unfold nodeOf clampIdx
  refine Fin.ext ?_
  show min (wrapW v).toInt.toNat (50000 - 1) = c.val
  rw [hw, h, Int.toNat_natCast]
  omega

/-- The word of a small natural number is that number, read signed. -/
theorem toInt_ofNat_small (i : ℕ) (h : i < 50000) : (BitVec.ofNat 32 i).toInt = (i : ℤ) := by
  rw [BitVec.toInt_eq_toNat_cond, BitVec.toNat_ofNat, Nat.mod_eq_of_lt (by omega)]
  split <;> omega

/-! ## The layer -/

/-- The source and target words of edge `e` in a 2 × 800000 table. -/
def srcW (ed : IVec ⟨2, ![2, 800000]⟩ 32) (e : Fin 800000) : BitVec 32 := ed (ix2 (0 : Fin 2) e)
def tgtW (ed : IVec ⟨2, ![2, 800000]⟩ 32) (e : Fin 800000) : BitVec 32 := ed (ix2 (1 : Fin 2) e)

/-- How many edges have node `c` as their target. -/
def cnt (ed : IVec ⟨2, ![2, 800000]⟩ 32) (c : Fin 50000) : EReal :=
  ∑ e : Fin 800000, if (tgtW ed e).toInt = (c.val : ℤ) then (1 : EReal) else 0

/-- The node's weight: the inverse square root of its message count (its own loop included), never below one message. -/
def dinv (ed : IVec ⟨2, ![2, 800000]⟩ 32) (c : Fin 50000) : EReal := Ideal.rsqrt (max (1 + cnt ed c) 1)

/-- The projected feature of node `c` in output channel `k`. -/
def xw (x : (⟨2, ![50000, 128]⟩ : Shape).Idx → EReal) (W : (⟨2, ![128, 64]⟩ : Shape).Idx → EReal) (c : Fin 50000) (k : Fin 64) : EReal :=
  ∑ q : Fin 128, x (ix2 c q) * W (ix2 q k)

/-- The layer's output at node `c`, channel `k`. -/
def out (ed : IVec ⟨2, ![2, 800000]⟩ 32) (x : (⟨2, ![50000, 128]⟩ : Shape).Idx → EReal)
    (W : (⟨2, ![128, 64]⟩ : Shape).Idx → EReal) (b : (⟨1, ![64]⟩ : Shape).Idx → EReal) (c : Fin 50000) (k : Fin 64) : EReal :=
  dinv ed c * ((∑ e : Fin 800000, if (tgtW ed e).toInt = (c.val : ℤ)
      then dinv ed (nodeOf (srcW ed e)) * xw x W (nodeOf (srcW ed e)) k else 0) + dinv ed c * xw x W c k) + b (ix1 k)

theorem out_def (ed : IVec ⟨2, ![2, 800000]⟩ 32) (x : (⟨2, ![50000, 128]⟩ : Shape).Idx → EReal)
    (W : (⟨2, ![128, 64]⟩ : Shape).Idx → EReal) (b : (⟨1, ![64]⟩ : Shape).Idx → EReal) (c : Fin 50000) (k : Fin 64) :
    out ed x W b c k = dinv ed c * ((∑ e : Fin 800000, if (tgtW ed e).toInt = (c.val : ℤ)
      then dinv ed (nodeOf (srcW ed e)) * xw x W (nodeOf (srcW ed e)) k else 0) + dinv ed c * xw x W c k) + b (ix1 k) := rfl

/-- The whole output array. -/
def outArr (ed : IVec ⟨2, ![2, 800000]⟩ 32) (x : (⟨2, ![50000, 128]⟩ : Shape).Idx → EReal)
    (W : (⟨2, ![128, 64]⟩ : Shape).Idx → EReal) (b : (⟨1, ![64]⟩ : Shape).Idx → EReal) :
    (⟨2, ![50000, 64]⟩ : Shape).Idx → EReal := fun i => out ed x W b (i 0) (i 1)

theorem dinv_def (ed : IVec ⟨2, ![2, 800000]⟩ 32) (c : Fin 50000) :
    dinv ed c = Ideal.rsqrt (max (1 + ∑ e : Fin 800000, if (tgtW ed e).toInt = (c.val : ℤ) then (1 : EReal) else 0) 1) := rfl

/-! ## Constant vectors and the host's inverse square root, read at an index -/

theorem rsqrtV_apply {s : Shape} (x : FVec Ideal s .f32) (i : s.Idx) : Host.rsqrt x i = Ideal.rsqrt (x i) := rfl

/-- The float one broadcast to any shape reads one everywhere. -/
theorem oneVec_apply {s : Shape} (dims : Fin 0 → Fin s.rank) (h : (⟨0, ![]⟩ : Shape).BroadcastsInDim s dims) (i : s.Idx) :
    broadcastInDim s dims h (constant (F := Ideal) ⟨0, ![]⟩ .f32 0x3F800000#32) i = (1 : EReal) :=
  (broadcastInDim_apply dims h _ i ix0 fun ax => ax.elim0).trans ofBits_one

/-- The float zero broadcast to any shape reads zero everywhere. -/
theorem zeroVec_apply {s : Shape} (dims : Fin 0 → Fin s.rank) (h : (⟨0, ![]⟩ : Shape).BroadcastsInDim s dims) (i : s.Idx) :
    broadcastInDim s dims h (constant (F := Ideal) ⟨0, ![]⟩ .f32 0x00000000#32) i = (0 : EReal) :=
  (broadcastInDim_apply dims h _ i ix0 fun ax => ax.elim0).trans Ideal.ofBits_zero_f32

/-! ## The weight is a finite non-negative number -/

theorem cnt_nonneg (ed : IVec ⟨2, ![2, 800000]⟩ 32) (c : Fin 50000) : 0 ≤ cnt ed c :=
  Finset.sum_nonneg fun e _ => by split <;> simp

/-- The inverse square root of an extended real that is at least one is finite and non-negative. -/
theorem rsqrt_of_one_le {y : EReal} (h : 1 ≤ y) : 0 ≤ Ideal.rsqrt y ∧ Ideal.rsqrt y ≠ ⊤ := by
  induction y using EReal.rec with
  | bot => exact absurd h (not_le.mpr (by exact_mod_cast EReal.bot_lt_coe 1))
  | top =>
    have e : Ideal.rsqrt (⊤ : EReal) = 0 := rfl
    rw [e]
    exact ⟨le_refl _, EReal.zero_ne_top⟩
  | coe r =>
    have hr : (1 : ℝ) ≤ r := by exact_mod_cast h
    have e : Ideal.rsqrt (r : EReal) = (((Real.sqrt r)⁻¹ : ℝ) : EReal) := by
      show (if r < 0 then ⊥ else if r = 0 then ⊤ else (((Real.sqrt r)⁻¹ : ℝ) : EReal)) = _
      rw [if_neg (by linarith), if_neg (by linarith)]
    rw [e]
    exact ⟨by exact_mod_cast inv_nonneg.mpr (Real.sqrt_nonneg r), EReal.coe_ne_top _⟩

theorem dinv_nonneg (ed : IVec ⟨2, ![2, 800000]⟩ 32) (c : Fin 50000) : 0 ≤ dinv ed c :=
  (rsqrt_of_one_le (le_max_right _ _)).1
theorem dinv_ne_top (ed : IVec ⟨2, ![2, 800000]⟩ 32) (c : Fin 50000) : dinv ed c ≠ ⊤ :=
  (rsqrt_of_one_le (le_max_right _ _)).2

/-! ## Sums -/

/-- A finite non-negative factor goes inside a sum of extended reals. -/
theorem mul_sum_of_nonneg {ι : Type*} (s : Finset ι) (d : EReal) (h0 : 0 ≤ d) (ht : d ≠ ⊤) (f : ι → EReal) :
    d * ∑ i ∈ s, f i = ∑ i ∈ s, d * f i := by
  classical
  induction s using Finset.induction_on with
  | empty => simp
  | insert a s ha ih =>
    rw [Finset.sum_insert ha, Finset.sum_insert ha, EReal.left_distrib_of_nonneg_of_ne_top h0 ht, ih]

/-- A sum over the first `a + b` numbers is the sum over the first `a` plus the sum over the `b` that follow. -/
theorem sum_fin_split {A : Type*} [AddCommMonoid A] {a b n : ℕ} (h : a + b = n) (f : Fin n → A) :
    ∑ j, f j = ∑ e : Fin a, f ⟨e.val, by omega⟩ + ∑ i : Fin b, f ⟨a + i.val, by omega⟩ := by
  subst h
  exact Fin.sum_univ_add f

/-! ## The two arrangements agree -/

/-- The rearrangement over any index set: with `d` finite and non-negative, and `g e = d` wherever the condition holds,
    `∑ [P e] xn e · (dn e · g e) + X · (d · d) = d · (∑ [P e] dn e · xn e + d · X)`. -/
theorem weighted_sum_rearrange {ι : Type*} (s : Finset ι) (d : EReal) (h0 : 0 ≤ d) (ht : d ≠ ⊤) (P : ι → Prop) [DecidablePred P]
    (dn xn g : ι → EReal) (hg : ∀ e, P e → g e = d) (X B : EReal) :
    (0 + ((∑ e ∈ s, if P e then xn e * (dn e * g e) else 0) + X * (d * d))) + B
      = d * ((∑ e ∈ s, if P e then dn e * xn e else 0) + d * X) + B := by
  rw [zero_add, EReal.left_distrib_of_nonneg_of_ne_top h0 ht, mul_sum_of_nonneg _ _ h0 ht]
  congr 2
  · refine Finset.sum_congr rfl fun e _ => ?_
    by_cases h : P e
    · rw [if_pos h, if_pos h, hg e h, mul_comm (xn e), mul_comm (dn e) d, mul_assoc]
    · rw [if_neg h, if_neg h, mul_zero]
  · rw [mul_comm X, mul_assoc]

/-- One coefficient per message, self-loops included, summed per target node, plus the bias, is the layer's output:
    the target's weight comes out of the sum (it is finite and non-negative), and a message whose target word is
    exactly `c` has `c` as its target node. -/
theorem messages_eq_out (ed : IVec ⟨2, ![2, 800000]⟩ 32) (x : (⟨2, ![50000, 128]⟩ : Shape).Idx → EReal)
    (W : (⟨2, ![128, 64]⟩ : Shape).Idx → EReal) (b : (⟨1, ![64]⟩ : Shape).Idx → EReal) (c : Fin 50000) (k : Fin 64) :
    (0 + ((∑ e : Fin 800000, if (tgtW ed e).toInt = (c.val : ℤ)
        then xw x W (nodeOf (srcW ed e)) k * (dinv ed (nodeOf (srcW ed e)) * dinv ed (nodeOf (tgtW ed e))) else 0)
      + xw x W c k * (dinv ed c * dinv ed c))) + b (ix1 k) = out ed x W b c k :=
  weighted_sum_rearrange Finset.univ (dinv ed c) (dinv_nonneg ed c) (dinv_ne_top ed c)
    (fun e => (tgtW ed e).toInt = (c.val : ℤ)) (fun e => dinv ed (nodeOf (srcW ed e))) (fun e => xw x W (nodeOf (srcW ed e)) k)
    (fun e => dinv ed (nodeOf (tgtW ed e))) (fun e h => congrArg (dinv ed) (nodeOf_of_toInt h)) (xw x W c k) (b (ix1 k))

end Cert.Gcn

end
-- ==== Proof.KernelPrefix.lean ====
/-
  What the kernel's region finds when it starts: the host lines before it have split the edge table into its source and
  target words, counted the edges into every node, and turned the counts into the nodes' weights, stored as a column.
-/
import proofs.«160902_j66520453480545_2_alg».proof.Proof.Gen.KernelIdeal.Frame
import proofs.«160902_j66520453480545_2_alg».proof.Proof.LibSegment
import proofs.«160902_j66520453480545_2_alg».proof.Proof.LibRows
import proofs.«160902_j66520453480545_2_alg».proof.Proof.LibColumnStack
import proofs.«160902_j66520453480545_2_alg».proof.Proof.GcnSpec
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.Lib.Segment Cert.Gcn

variable (m : (ℓ : Loc nD τ sig) → Buf (Elt Ideal) ℓ)

/-- The edge table on core `c`. -/
abbrev edges (c : Dev nD) : IVec S2x800000 32 := m ((c : Thread nD τ).loc main_arg0)

/-- The source words, as the region (and the lines after it) find them. -/
theorem V_src (c : Dev nD) : (V m c main_v1 : S800000.Idx → BitVec 32)
    = shapeCast S800000 (extractStridedSlice S1x800000 ![0, 0] (edges m c) slices_S2x800000_S1x800000_0_0) shapeCasts_S1x800000_S800000 := by
  show StableHlo.after hostOps0 (fun b => m (c, b)) (Proc.devRef .tc main_v1) = _
  after_results
  rfl

/-- The target words. -/
theorem V_tgt (c : Dev nD) : (V m c main_v3 : S800000.Idx → BitVec 32)
    = shapeCast S800000 (extractStridedSlice S1x800000 ![1, 0] (edges m c) slices_S2x800000_S1x800000_1_0) shapeCasts_S1x800000_S800000 := by
  show StableHlo.after hostOps0 (fun b => m (c, b)) (Proc.devRef .tc main_v3) = _
  after_results
  rfl

theorem V_src_apply (c : Dev nD) (e : Fin 800000) : (V m c main_v1 : S800000.Idx → BitVec 32) (ix1 e) = srcW (edges m c) e := by
  rw [V_src]
  exact tableRow_apply (edges m c) (0 : Fin 2) ![0, 0] rfl rfl _ _ e

theorem V_tgt_apply (c : Dev nD) (e : Fin 800000) : (V m c main_v3 : S800000.Idx → BitVec 32) (ix1 e) = tgtW (edges m c) e := by
  rw [V_tgt]
  exact tableRow_apply (edges m c) (1 : Fin 2) ![1, 0] rfl rfl _ _ e

/-- The nodes' weights, as the host lines compute them from the target words. -/
def weightTerm (tgt : S800000.Idx → BitVec 32) : FVec Ideal S50000 .f32 :=
  Host.rsqrt (maximumf (addf (broadcastInDim S50000 ![] bcast_S_S50000 (constant (F := Ideal) S_ .f32 0x3F800000#32))
      (Host.scatterAdd scatter_S50000_S800000x1_S800000_n_0_0_1 (broadcastInDim S50000 ![] bcast_S_S50000 (constant (F := Ideal) S_ .f32 0x00000000#32))
        (broadcastInDim S800000x1 ![0] bcast_S800000_S800000x1_0 tgt)
        (broadcastInDim S800000 ![] bcast_S_S800000 (constant (F := Ideal) S_ .f32 0x3F800000#32))))
    (broadcastInDim S50000 ![] bcast_S_S50000 (constant (F := Ideal) S_ .f32 0x3F800000#32)))

theorem V_weight (c : Dev nD) : (V m c main_v12 : S50000.Idx → EReal) = weightTerm (V m c main_v3) := by
  show StableHlo.after hostOps0 (fun b => m (c, b)) (Proc.devRef .tc main_v12) = _
  after_results
  rfl

theorem V_weightCol (c : Dev nD) : (V m c main_v13 : S50000x1.Idx → EReal)
    = shapeCast S50000x1 (weightTerm (V m c main_v3)) shapeCasts_S50000_S50000x1 := by
  show StableHlo.after hostOps0 (fun b => m (c, b)) (Proc.devRef .tc main_v13) = _
  after_results
  rfl

/-- The count's dimension numbers are those of a segment sum into a vector. -/
theorem countDims_eq : scatter_S50000_S800000x1_S800000_n_0_0_1 = scat1 50000 800000 scatter_S50000_S800000x1_S800000_n_0_0_1_wf := rfl

/-- The weight term at node `p`, from any vector of target words: the inverse square root of one plus the number of words that
    are `p`, never below one. -/
theorem weightTerm_count (tgt : S800000.Idx → BitVec 32) (p : Fin 50000) : weightTerm tgt (ix1 p)
    = Ideal.rsqrt (max (1 + ∑ e : Fin 800000, if (tgt (ix1 e)).toInt = (p.val : ℤ) then (1 : EReal) else 0) 1) := by
  unfold weightTerm
  refine (rsqrtV_apply _ _).trans (congrArg Ideal.rsqrt ?_)
  refine (maximumf_apply _ _ _).trans ?_
  refine congrArg₂ max ?_ (oneVec_apply _ _ _)
  refine (addf_apply _ _ _).trans ?_
  refine congrArg₂ (· + ·) (oneVec_apply _ _ _) ?_
  rw [countDims_eq]
  refine (scatterAdd_vec_apply _ _ _ _ p).trans ?_
  rw [zeroVec_apply, zero_add]
  refine Finset.sum_congr rfl fun e _ => ?_
  rw [Cert.Lib.ColumnStack.broadcastInDim_column_apply _ _ rfl, oneVec_apply]

/-- With the edge table's target words it is the layer's weight of `p`. -/
theorem weightTerm_apply (c : Dev nD) (p : Fin 50000) : weightTerm (V m c main_v3) (ix1 p) = dinv (edges m c) p := by
  refine (weightTerm_count _ p).trans ?_
  refine (congrArg (fun s => Ideal.rsqrt (max (1 + s) 1)) (Finset.sum_congr rfl fun e _ => ?_)).trans (dinv_def (edges m c) p).symm
  rw [V_tgt_apply]

theorem V_weight_apply (c : Dev nD) (p : Fin 50000) : (V m c main_v12 : S50000.Idx → EReal) (ix1 p) = dinv (edges m c) p := by
  rw [V_weight]; exact weightTerm_apply m c p

theorem V_weightCol_apply (c : Dev nD) (p : Fin 50000) (u : Fin 1) :
    (V m c main_v13 : S50000x1.Idx → EReal) (ix2 p u) = dinv (edges m c) p := by
  rw [V_weightCol, Cert.Lib.ColumnStack.shapeCast_column_apply]
  exact weightTerm_apply m c p

end Cert.KernelIdeal.Hand

end
-- ==== Proof.KernelBlocks.lean ====
/-
  The kernel's region: ten row blocks of 5000 nodes each. At block `t` the body multiplies the block's 5000 × 128 feature rows
  by the whole 128 × 64 weight matrix and scales row `p` of the product by the weight of node `5000 t + p`. The ten written
  blocks tile the output, so after the region the array holds, at node `P` and channel `k`, the weight of `P` times the projected
  feature `xw P k`.
-/
import proofs.«160902_j66520453480545_2_alg».proof.Proof.KernelPrefix

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.Lib.Segment Cert.Gcn
open Idealize.ShloMosaic.Pipeline (Dat Cfg Window)

variable (m : (ℓ : Loc nD τ sig) → Buf (Elt Ideal) ℓ)

/-- The body's product is the plain one: rows times columns. -/
theorem bodyDot_eq : dot_S5000x128_S128x64_S5000x64_1_0_0_1_n_n = DotDims.plain 5000 128 64 := rfl

/-- What the body stores at row `p`, channel `k` of its block: the row's weight times the row of features against column `k`
    of the weights. -/
theorem pay_apply (x0 : Vec Ideal S5000x128 .f32) (x1 : Vec Ideal S128x64 .f32) (x2 : Vec Ideal S5000x1 .f32)
    (p : Fin 5000) (k : Fin 64) :
    k0_pay1 x0 x1 x2 (ix2 p k) = x2 (ix2 p (0 : Fin 1)) * ∑ q : Fin 128, x0 (ix2 p q) * x1 (ix2 q k) := by
  unfold k0_pay1
  rw [mulf_apply, Cert.Lib.Rows.broadcastTo_a1_ab_apply, shapeCast_self, bodyDot_eq, Cert.Lib.Rows.matmul_plain_zero_apply]
  rfl

theorem hz : (![0, 0] : Fin 2 → Nat) = fun _ => 0 := funext fun a => by fin_cases a <;> rfl

/-- The feature rows, the weights and the bias on core `c`. -/
abbrev feats (c : Dev nD) : S50000x128.Idx → EReal := m ((c : Thread nD τ).loc main_arg1)
abbrev wts (c : Dev nD) : S128x64.Idx → EReal := m ((c : Thread nD τ).loc main_arg4)
abbrev bias (c : Dev nD) : S64.Idx → EReal := m ((c : Thread nD τ).loc main_arg5)

/-- The scaled projection the region leaves: weight of the node times its projected features. -/
def scaled (c : Dev nD) : S50000x64.Idx → EReal :=
  fun i => dinv (edges m c) (i 0) * xw (feats m c) (wts m c) (i 0) (i 1)

/-- The printed block indices over the grid: the row windows move with the point, every other coordinate stays at 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of block `t` of any 50000 × 1 column is the column's row `5000 t + p`. -/
theorem read_blk_col (A : S50000x1.Idx → EReal) (t : Fin cfg0.N) (p : Fin 5000) (u : Fin 1) (P : Fin 50000)
    (hP : P.val = t.val * 5000 + p.val) : ((cfg0.win 2).blk t).view.read (Elt Ideal) A (ix2 p u) = A (ix2 P u) := by
  obtain ⟨e0, e1, e2, e3, e4, e5, e6, e7⟩ := idx_facts t
  have hemb : ((cfg0.win 2).blk t).view.emb (ix2 p u) = ix2 P u := by
    funext a
    apply Fin.ext
    match a with
    | ⟨0, _⟩ => show win0_2.index t (0 : Fin 2) * 5000 + 1 * p.val = P.val; rw [e4, hP]; omega
    | ⟨1, _⟩ => show win0_2.index t (1 : Fin 2) * 1 + 1 * u.val = u.val; rw [e5]; omega
  rw [View.read_apply, hemb]
  rfl

/-- Row `p` of block `t` of any 50000 × 128 array is the array's row `5000 t + p`. -/
theorem read_blk_rows (A : S50000x128.Idx → EReal) (t : Fin cfg0.N) (p : Fin 5000) (q : Fin 128) (P : Fin 50000)
    (hP : P.val = t.val * 5000 + p.val) : ((cfg0.win 0).blk t).view.read (Elt Ideal) A (ix2 p q) = A (ix2 P q) := by
  obtain ⟨e0, e1, e2, e3, e4, e5, e6, e7⟩ := idx_facts t
  have hemb : ((cfg0.win 0).blk t).view.emb (ix2 p q) = ix2 P q := by
    funext a
    apply Fin.ext
    match a with
    | ⟨0, _⟩ => show win0_0.index t (0 : Fin 2) * 5000 + 1 * p.val = P.val; rw [e0, hP]; omega
    | ⟨1, _⟩ => show win0_0.index t (1 : Fin 2) * 128 + 1 * q.val = q.val; rw [e1]; omega
  rw [View.read_apply, hemb]
  rfl

/-- The one block of any 128 × 64 matrix is the matrix. -/
theorem read_blk_whole (A : S128x64.Idx → EReal) (t : Fin cfg0.N) (q : Fin 128) (k : Fin 64) :
    ((cfg0.win 1).blk t).view.read (Elt Ideal) A (ix2 q k) = A (ix2 q k) := by
  obtain ⟨e0, e1, e2, e3, e4, e5, e6, e7⟩ := idx_facts t
  have hemb : ((cfg0.win 1).blk t).view.emb (ix2 q k) = ix2 q k := by
    funext a
    apply Fin.ext
    match a with
    | ⟨0, _⟩ => show win0_1.index t (0 : Fin 2) * 128 + 1 * q.val = q.val; rw [e2]; omega
    | ⟨1, _⟩ => show win0_1.index t (1 : Fin 2) * 64 + 1 * k.val = k.val; rw [e3]; omega
  rw [View.read_apply, hemb]
  rfl

/-- Row `p` of the weight column's block at point `t` is the weight of node `5000 t + p`. -/
theorem blk_weight (c : Dev nD) (t : Fin cfg0.N) (p : Fin 5000) (u : Fin 1) (P : Fin 50000) (hP : P.val = t.val * 5000 + p.val) :
    (iblk m c 2 t : Vec Ideal S5000x1 .f32) (ix2 p u) = dinv (edges m c) P :=
  (read_blk_col (V m c (Pipeline.arrRef spec0 2)) t p u P hP).trans (V_weightCol_apply m c P u)

/-- Row `p` of the feature block at point `t` is the feature row of node `5000 t + p`. -/
theorem blk_feats (c : Dev nD) (t : Fin cfg0.N) (p : Fin 5000) (q : Fin 128) (P : Fin 50000) (hP : P.val = t.val * 5000 + p.val) :
    (iblk m c 0 t : Vec Ideal S5000x128 .f32) (ix2 p q) = feats m c (ix2 P q) :=
  (read_blk_rows (V m c (Pipeline.arrRef spec0 0)) t p q P hP).trans (congrFun (V_main_arg1 m c) (ix2 P q))

/-- The weight matrix's one block is the whole matrix. -/
theorem blk_wts (c : Dev nD) (t : Fin cfg0.N) (q : Fin 128) (k : Fin 64) :
    (iblk m c 1 t : Vec Ideal S128x64 .f32) (ix2 q k) = wts m c (ix2 q k) :=
  (read_blk_whole (V m c (Pipeline.arrRef spec0 1)) t q k).trans (congrFun (V_main_arg4 m c) (ix2 q k))

/-- Row `p` of block `t` of any 50000 × 64 array is the array's row `5000 t + p`. -/
theorem read_blk_out (A : S50000x64.Idx → EReal) (t : Fin cfg0.N) (p : Fin 5000) (k : Fin 64) (P : Fin 50000)
    (hP : P.val = t.val * 5000 + p.val) : ((cfg0.win 3).blk t).view.read (Elt Ideal) A (ix2 p k) = A (ix2 P k) := by
  obtain ⟨e0, e1, e2, e3, e4, e5, e6, e7⟩ := idx_facts t
  have hemb : ((cfg0.win 3).blk t).view.emb (ix2 p k) = ix2 P k := by
    funext a
    apply Fin.ext
    match a with
    | ⟨0, _⟩ => show win0_3.index t (0 : Fin 2) * 5000 + 1 * p.val = P.val; rw [e6, hP]; omega
    | ⟨1, _⟩ => show win0_3.index t (1 : Fin 2) * 64 + 1 * k.val = k.val; rw [e7]; omega
  rw [View.read_apply, hemb]
  rfl

/-- The scaled projection at node `P`, channel `k`. -/
theorem scaled_apply (c : Dev nD) (P : Fin 50000) (k : Fin 64) :
    scaled m c (ix2 P k) = dinv (edges m c) P * ∑ q : Fin 128, feats m c (ix2 P q) * wts m c (ix2 q k) := rfl

/-- What point `t` writes back is block `t` of the scaled projection. -/
theorem flushed_eq (c : Dev nD) (t : Fin cfg0.N) :
    (dats m 0 c).flushed 3 t = ((cfg0.win 3).blk t).view.read (Elt Ideal) (scaled m c) := by
  show (cfg0.win 3).cut (grid0.coords t) ((dats m 0 c).after 3 t) = _
  rw [after0_3]
  unfold out0_3
  rw [View.canon_unit_zero hz]
  simp only [View.ld_unit_zero (S := S5000x128) hz, View.ld_unit_zero (S := S128x64) hz, View.ld_unit_zero (S := S5000x1) hz]
  funext j
  obtain ⟨p, k, rfl⟩ : ∃ (p : Fin 5000) (k : Fin 64), j = ix2 p k := ⟨j 0, j 1, eq_ix2 j⟩
  have hlt : t.val * 5000 + p.val < 50000 := by
    have h1 : t.val < 10 := lt_of_lt_of_eq t.isLt N_0
    have := p.isLt; omega
  refine (pay_apply _ _ _ p k).trans ?_
  refine Eq.trans ?_ (read_blk_out (scaled m c) t p k ⟨t.val * 5000 + p.val, hlt⟩ rfl).symm
  refine Eq.trans ?_ (scaled_apply m c ⟨t.val * 5000 + p.val, hlt⟩ k).symm
  refine congrArg₂ (· * ·) (blk_weight m c t p 0 ⟨t.val * 5000 + p.val, hlt⟩ rfl) (Finset.sum_congr rfl fun q _ => ?_)
  rw [blk_feats m c t p q ⟨t.val * 5000 + p.val, hlt⟩ rfl, blk_wts m c t q k]

/-- An index of the array is in point `t`'s block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v14).slice (win0_3.rect t)).set ↔ _
  rw [View.set_slice_whole, Rect.mem_set_unit]
  exact Iff.rfl

/-- The ten blocks cover the array: node `r` lies in block `r / 5000`. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  refine ⟨⟨(i 0).val / 5000, by rw [show cfg0.N = 10 from N_0]; omega⟩, flush0_3 _, ?_⟩
  rw [mem_blk]
  obtain ⟨e0, e1, e2, e3, e4, e5, e6, e7⟩ := idx_facts ⟨(i 0).val / 5000, by rw [show cfg0.N = 10 from N_0]; omega⟩
  intro a
  match a with
  | ⟨0, _⟩ =>
    show win0_3.index _ (0 : Fin 2) * 5000 ≤ (i 0).val ∧ (i 0).val < win0_3.index _ (0 : Fin 2) * 5000 + 5000
    rw [e6]
    show (i 0).val / 5000 * 5000 ≤ (i 0).val ∧ (i 0).val < (i 0).val / 5000 * 5000 + 5000
    omega
  | ⟨1, _⟩ =>
    show win0_3.index _ (1 : Fin 2) * 64 ≤ (i 1).val ∧ (i 1).val < win0_3.index _ (1 : Fin 2) * 64 + 64
    rw [e7]
    omega

/-- The region's output array after the run. -/
theorem final_scaled (c : Dev nD) : (dats m 0 c).arrAt 3 cfg0.N = scaled m c :=
  (dats m 0 c).arrAt_eq_of_cover 3 (scaled m c) (fun t _ => flushed_eq m c t) cover

end Cert.KernelIdeal.Hand

end
-- ==== Proof.KernelTail.lean ====
/-
  The lines after the kernel's region: every edge looks up the scaled projection of its source node, the looked-up rows
  are added into the rows of their target nodes, each node's own scaled projection is added, the sum is scaled once more
  by the node's weight, and the bias is added. Read at node `c` and channel `k` this is the layer's output.
-/
import proofs.«160902_j66520453480545_2_alg».proof.Proof.KernelBlocks

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.Lib.Segment Cert.Gcn

variable (m : (ℓ : Loc nD τ sig) → Buf (Elt Ideal) ℓ)

/-- Index words wrapped the way a look-up reads them, a whole vector at a time. -/
def wrapVec (v : S800000.Idx → BitVec 32) : S800000.Idx → BitVec 32 :=
  select (cmpi .slt v (broadcastInDim S800000 ![] bcast_S_S800000 (constantI S_ 32 0#32)))
    (addi v (broadcastInDim S800000 ![] bcast_S_S800000 (constantI S_ 32 50000#32))) v

theorem wrapVec_apply (v : S800000.Idx → BitVec 32) (i : S800000.Idx) : wrapVec v i = wrapW (v i) := rfl

/-- The lines after the region as one term of what they read: the source and target words, the weights, the region's
    output and the bias. -/
def tailTerm (src tgt : S800000.Idx → BitVec 32) (w : S50000.Idx → EReal) (sc : S50000x64.Idx → EReal) (b : S64.Idx → EReal) :
    S50000x64.Idx → EReal :=
  addf (mulf (broadcastInDim S50000x64 ![0, 1] bcast_S50000x1_S50000x64_0_1 (broadcastInDim S50000x1 ![0] bcast_S50000_S50000x1_0 w))
      (addf (Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 tgt)
          (Host.gather gather_S50000x64_S800000x1_S800000x64_1_0_n_n_0_1_164 sc
            (broadcastInDim S800000x1 ![0] bcast_S800000_S800000x1_0 (wrapVec src))))
        sc))
    (broadcastInDim S50000x64 ![0, 1] bcast_S1x64_S50000x64_0_1 (broadcastInDim S1x64 ![1] bcast_S64_S1x64_1 b))

theorem sumDims_eq : scatter_S50000x64_S800000x1_S800000x64_1_0_0_1
    = scat2 50000 64 800000 scatter_S50000x64_S800000x1_S800000x64_1_0_0_1_wf := rfl
theorem lookDims_eq : gather_S50000x64_S800000x1_S800000x64_1_0_n_n_0_1_164
    = gath2 50000 64 800000 gather_S50000x64_S800000x1_S800000x64_1_0_n_n_0_1_164_wf := rfl

/-- The term at node `c`, channel `k`. -/
theorem tailTerm_apply (src tgt : S800000.Idx → BitVec 32) (w : S50000.Idx → EReal) (sc : S50000x64.Idx → EReal) (b : S64.Idx → EReal)
    (c : Fin 50000) (k : Fin 64) :
    tailTerm src tgt w sc b (ix2 c k)
      = w (ix1 c) * ((∑ e : Fin 800000, if (tgt (ix1 e)).toInt = (c.val : ℤ) then sc (ix2 (nodeOf (src (ix1 e))) k) else 0) + sc (ix2 c k))
        + b (ix1 k) := by
  unfold tailTerm
  refine (addf_apply _ _ _).trans (congrArg₂ (· + ·) ?_ ?_)
  · refine (mulf_apply _ _ _).trans (congrArg₂ (· * ·) ?_ ?_)
    · exact (Cert.Lib.Rows.broadcastInDim_a1_ab_apply _ _ c k).trans (Cert.Lib.ColumnStack.broadcastInDim_column_apply _ _ rfl _ _)
    · refine (addf_apply _ _ _).trans (congrArg₂ (· + ·) ?_ rfl)
      rw [sumDims_eq]
      refine (scatterAdd_rows_apply _ _ _ _ c k).trans ?_
      refine (congrArg₂ (· + ·) (zeroVec_apply _ _ _) rfl).trans ((zero_add _).trans ?_)
      refine Finset.sum_congr rfl fun e _ => ?_
      have h1 : broadcastInDim S800000x1 ![0] bcast_S800000_S800000x1_0 tgt (ix2 e (0 : Fin 1)) = tgt (ix1 e) :=
        Cert.Lib.ColumnStack.broadcastInDim_column_apply _ _ rfl _ _
      have h2 : Host.gather gather_S50000x64_S800000x1_S800000x64_1_0_n_n_0_1_164 sc
          (broadcastInDim S800000x1 ![0] bcast_S800000_S800000x1_0 (wrapVec src)) (ix2 e k) = sc (ix2 (nodeOf (src (ix1 e))) k) := by
        rw [lookDims_eq]
        refine (gather_rows_apply (by decide) _ _ _ e k).trans ?_
        rw [Cert.Lib.ColumnStack.broadcastInDim_column_apply _ _ rfl]
        rfl
      rw [h1, h2]
  · exact (Cert.Lib.Rows.broadcastInDim_1b_ab_apply _ _ c k).trans (Cert.Lib.Rows.broadcastInDim_b_1b_apply _ _ _ k)

set_option maxHeartbeats 8000000 in
/-- The result buffer after the run, as that term of the arrays the lines after the region find. -/
theorem tail_eq (c : Dev nD) :
    (Pipeline.afterTail₀ cfgs (dats m) 0 (V0 m) [hostOps1] c main_v31 : S50000x64.Idx → EReal)
      = tailTerm (V m c main_v1) (V m c main_v3) (V m c main_v12) ((dats m 0 c).arrAt 3 cfg0.N) (V m c main_arg5) := by
  unfold Pipeline.afterTail₀
  show StableHlo.after hostOps1 _ (Proc.devRef .tc main_v31) = _
  after_results
  have a1 := Pipeline.withArrays_of_ne (cfgs 0).spec c (V0 m c) (fun w => (dats m 0 c).arrAt w (cfgs 0).N) main_v1
    (by exact (by decide : ∀ w, Pipeline.arrRef spec0 w ≠ main_v1))
  have a3 := Pipeline.withArrays_of_ne (cfgs 0).spec c (V0 m c) (fun w => (dats m 0 c).arrAt w (cfgs 0).N) main_v3
    (by exact (by decide : ∀ w, Pipeline.arrRef spec0 w ≠ main_v3))
  have a12 := Pipeline.withArrays_of_ne (cfgs 0).spec c (V0 m c) (fun w => (dats m 0 c).arrAt w (cfgs 0).N) main_v12
    (by exact (by decide : ∀ w, Pipeline.arrRef spec0 w ≠ main_v12))
  have a5 := Pipeline.withArrays_of_ne (cfgs 0).spec c (V0 m c) (fun w => (dats m 0 c).arrAt w (cfgs 0).N) main_arg5
    (by exact (by decide : ∀ w, Pipeline.arrRef spec0 w ≠ main_arg5))
  have a14 : Pipeline.withArrays (cfgs 0).spec c (V0 m c) (fun w => (dats m 0 c).arrAt w (cfgs 0).N) (Proc.devRef .tc main_v14)
      = (dats m 0 c).arrAt 3 cfg0.N :=
    Pipeline.withArrays_arr (cfgs 0).spec launch0.win.arr_inj c (V0 m c) (fun w => (dats m 0 c).arrAt w (cfgs 0).N) 3
  rw [a1, a3, a12, a5, a14]
  rfl

/-- The kernel's result buffer after the run is the layer's output. -/
theorem result_eq (c : Dev nD) :
    (Pipeline.afterTail₀ cfgs (dats m) 0 (V0 m) [hostOps1] c main_v31 : S50000x64.Idx → EReal)
      = outArr (edges m c) (feats m c) (wts m c) (bias m c) := by
  rw [tail_eq, final_scaled]
  funext i
  obtain ⟨p, k, rfl⟩ : ∃ (p : Fin 50000) (k : Fin 64), i = ix2 p k := ⟨i 0, i 1, eq_ix2 i⟩
  refine (tailTerm_apply _ _ _ _ _ p k).trans ?_
  show _ = out (edges m c) (feats m c) (wts m c) (bias m c) p k
  rw [out_def]
  refine congrArg₂ (· + ·) (congrArg₂ (· * ·) (V_weight_apply m c p) (congrArg₂ (· + ·) (Finset.sum_congr rfl fun e _ => ?_) rfl))
    (congrFun (V_main_arg5 m c) (ix1 k))
  rw [V_tgt_apply, V_src_apply]
  rfl

end Cert.KernelIdeal.Hand

end
-- ==== Proof.RefRun.lean ====
/-
  The reference program's run, read back.

  The reference is a straight line of array operations: it builds the message tables (every edge's source and target,
  followed by one self-loop per node), counts how many messages reach each node, takes the inverse square root of that
  count, forms one coefficient per message from its two end nodes, looks up the projected feature row of each message's
  source, scales it by the coefficient and adds it into the row of the message's target, and finally adds the bias. (It
  does all of this twice, once per weight matrix; only the second pass reaches the result.) Listed as operations in
  program order, every weakly fair execution ends with the result array at the operations' composed term of the
  argument arrays, and the arguments unchanged.
-/
import proofs.«160902_j66520453480545_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order (an outlined function's operations stand where it is called). -/
abbrev ops : List (HloOp τ sig (Elt F)) :=
  [ unary main_arg0 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg0 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_arg1 main_arg2 main_v7 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v16) (TRef.of (T := ⟨S50000, .f32⟩) main_call0_v1) (TRef.of (T := ⟨S50000, .f32⟩) main_v17) select,
    nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v5 main_v18 main_v19 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v20 (broadcastInDim S850000 ![] bcast_S_S850000 : (⟨S_, .i32⟩ : BufTy).Contents (Elt F) → (⟨S850000, .i32⟩ : BufTy).Contents (Elt F)),
    binary main_v5 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v5 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v27 (broadcastInDim S850000 ![] bcast_S_S850000 : (⟨S_, .i32⟩ : BufTy).Contents (Elt F) → (⟨S850000, .i32⟩ : BufTy).Contents (Elt F)),
    binary main_v6 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v6 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v17 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)),
    nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v5 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v5 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v7 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v32 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v48) (TRef.of (T := ⟨S50000x128, .f32⟩) main_call1_v0) (TRef.of (T := ⟨S50000x128, .f32⟩) main_v49) maximumf,
    unary main_arg0 main_v50 ((extractStridedSlice S1x800000 ![0, 0] · slices_S2x800000_S1x800000_0_0) : (⟨S2x800000, .i32⟩ : BufTy).Contents (Elt F) → (⟨S1x800000, .i32⟩ : BufTy).Contents (Elt F)),
    reshape main_v50 main_v51 rfl shapeCasts_S1x800000_S800000,
    unary main_arg0 main_v52 ((extractStridedSlice S1x800000 ![1, 0] · slices_S2x800000_S1x800000_1_0) : (⟨S2x800000, .i32⟩ : BufTy).Contents (Elt F) → (⟨S1x800000, .i32⟩ : BufTy).Contents (Elt F)),
    reshape main_v52 main_v53 rfl shapeCasts_S1x800000_S800000,
    nullary main_v54 (iotaInDim S50000 32 0),
    binary main_v51 main_v54 main_v55 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v53 main_v54 main_v56 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_arg1 main_arg4 main_v57 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_cst_10 (constant S_ .f32 0x3F800000#32),
    unary main_cst_10 main_v58 (broadcastInDim S850000 ![] bcast_S_S850000 : (⟨S_, .f32⟩ : BufTy).Contents (Elt F) → (⟨S850000, .f32⟩ : BufTy).Contents (Elt F)),
    nullary main_cst_11 (constant S_ .f32 0x00000000#32),
    unary main_cst_11 main_v59 (broadcastInDim S50000 ![] bcast_S_S50000 : (⟨S_, .f32⟩ : BufTy).Contents (Elt F) → (⟨S50000, .f32⟩ : BufTy).Contents (Elt F)),
    unary main_v56 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_12 (constant S_ .f32 0x00000000#32),
    unary main_cst_12 main_v62 (broadcastInDim S50000 ![] bcast_S_S50000 : (⟨S_, .f32⟩ : BufTy).Contents (Elt F) → (⟨S50000, .f32⟩ : BufTy).Contents (Elt F)),
    binary main_v61 main_v62 main_v63 (cmpf .ogt : (⟨S50000, .f32⟩ : BufTy).Contents (Elt F) → (⟨S50000, .f32⟩ : BufTy).Contents (Elt F) → (⟨S50000, .i1⟩ : BufTy).Contents (Elt F)),
    nullary main_cst_13 (constant S_ .f32 0x3F800000#32),
    unary main_cst_13 main_v64 (broadcastInDim S50000 ![] bcast_S_S50000 : (⟨S_, .f32⟩ : BufTy).Contents (Elt F) → (⟨S50000, .f32⟩ : BufTy).Contents (Elt F)),
    binary main_v61 main_v64 main_v65 (maximumf : (⟨S50000, .f32⟩ : BufTy).Contents (Elt F) → (⟨S50000, .f32⟩ : BufTy).Contents (Elt F) → (⟨S50000, .f32⟩ : BufTy).Contents (Elt F)),
    unary main_v65 main_v66 (Host.rsqrt : (⟨S50000, .f32⟩ : BufTy).Contents (Elt F) → (⟨S50000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v63) (TRef.of (T := ⟨S50000, .f32⟩) main_v66) (TRef.of (T := ⟨S50000, .f32⟩) main_call2_v1) (TRef.of (T := ⟨S50000, .f32⟩) main_v67) select,
    nullary main_c_15 (constantI S_ 32 0#32),
    unary main_c_15 main_v68 (broadcastInDim S850000 ![] bcast_S_S850000 : (⟨S_, .i32⟩ : BufTy).Contents (Elt F) → (⟨S850000, .i32⟩ : BufTy).Contents (Elt F)),
    binary main_v55 main_v68 main_v69 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v70 (broadcastInDim S850000 ![] bcast_S_S850000 : (⟨S_, .i32⟩ : BufTy).Contents (Elt F) → (⟨S850000, .i32⟩ : BufTy).Contents (Elt F)),
    binary main_v55 main_v70 main_v71 (addi : (⟨S850000, .i32⟩ : BufTy).Contents (Elt F) → (⟨S850000, .i32⟩ : BufTy).Contents (Elt F) → (⟨S850000, .i32⟩ : BufTy).Contents (Elt F)),
    ternary main_v69 main_v71 main_v55 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v72 main_v73 (broadcastInDim S850000x1 ![0] bcast_S850000_S850000x1_0 : (⟨S850000, .i32⟩ : BufTy).Contents (Elt F) → (⟨S850000x1, .i32⟩ : BufTy).Contents (Elt F)),
    binary main_v67 main_v73 main_v74 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v56 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v56 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v56 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v67 main_v80 main_v81 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v74 main_v81 main_v82 (mulf : (⟨S850000, .f32⟩ : BufTy).Contents (Elt F) → (⟨S850000, .f32⟩ : BufTy).Contents (Elt F) → (⟨S850000, .f32⟩ : BufTy).Contents (Elt F)),
    nullary main_c_19 (constantI S_ 32 0#32),
    unary main_c_19 main_v83 (broadcastInDim S850000 ![] bcast_S_S850000 : (⟨S_, .i32⟩ : BufTy).Contents (Elt F) → (⟨S850000, .i32⟩ : BufTy).Contents (Elt F)),
    binary main_v55 main_v83 main_v84 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v85 (broadcastInDim S850000 ![] bcast_S_S850000 : (⟨S_, .i32⟩ : BufTy).Contents (Elt F) → (⟨S850000, .i32⟩ : BufTy).Contents (Elt F)),
    binary main_v55 main_v85 main_v86 (addi : (⟨S850000, .i32⟩ : BufTy).Contents (Elt F) → (⟨S850000, .i32⟩ : BufTy).Contents (Elt F) → (⟨S850000, .i32⟩ : BufTy).Contents (Elt F)),
    ternary main_v84 main_v86 main_v55 main_v87 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v87 main_v88 (broadcastInDim S850000x1 ![0] bcast_S850000_S850000x1_0 : (⟨S850000, .i32⟩ : BufTy).Contents (Elt F) → (⟨S850000x1, .i32⟩ : BufTy).Contents (Elt F)),
    binary main_v57 main_v88 main_v89 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v82 main_v90 (broadcastInDim S850000x1 ![0] bcast_S850000_S850000x1_0 : (⟨S850000, .f32⟩ : BufTy).Contents (Elt F) → (⟨S850000x1, .f32⟩ : BufTy).Contents (Elt F)),
    unary main_v90 main_v91 (broadcastInDim S850000x64 ![0, 1] bcast_S850000x1_S850000x64_0_1 : (⟨S850000x1, .f32⟩ : BufTy).Contents (Elt F) → (⟨S850000x64, .f32⟩ : BufTy).Contents (Elt F)),
    binary main_v89 main_v91 main_v92 (mulf : (⟨S850000x64, .f32⟩ : BufTy).Contents (Elt F) → (⟨S850000x64, .f32⟩ : BufTy).Contents (Elt F) → (⟨S850000x64, .f32⟩ : BufTy).Contents (Elt F)),
    nullary main_cst_21 (constant S_ .f32 0x00000000#32),
    unary main_cst_21 main_v93 (broadcastInDim S50000x64 ![] bcast_S_S50000x64 : (⟨S_, .f32⟩ : BufTy).Contents (Elt F) → (⟨S50000x64, .f32⟩ : BufTy).Contents (Elt F)),
    unary main_v56 main_v94 (broadcastInDim S850000x1 ![0] bcast_S850000_S850000x1_0 : (⟨S850000, .i32⟩ : BufTy).Contents (Elt F) → (⟨S850000x1, .i32⟩ : BufTy).Contents (Elt F)),
    ternary main_v93 main_v94 main_v92 main_v95 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v96 (broadcastInDim S1x64 ![1] bcast_S64_S1x64_1 : (⟨S64, .f32⟩ : BufTy).Contents (Elt F) → (⟨S1x64, .f32⟩ : BufTy).Contents (Elt F)),
    unary main_v96 main_v97 (broadcastInDim S50000x64 ![0, 1] bcast_S1x64_S50000x64_0_1 : (⟨S1x64, .f32⟩ : BufTy).Contents (Elt F) → (⟨S50000x64, .f32⟩ : BufTy).Contents (Elt F)),
    binary main_v95 main_v97 main_v98 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
/-- The result array as one term of the argument arrays: the second pass's accumulated messages plus the bias. -/
def result (m : (ℓ : Loc nD τ sig) → Buf (Elt F) ℓ) (c : Dev nD) : Buf (Elt F) ((c.tc : Thread nD τ).loc main_v98) :=
  addf (Host.scatterAdd scatter_S50000x64_S850000x1_S850000x64_1_0_0_1 (broadcastInDim S50000x64 ![] bcast_S_S50000x64 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg0)) slices_S2x800000_S1x800000_1_0) shapeCasts_S1x800000_S800000)⟩, ⟨S50000, (iotaInDim S50000 32 0)⟩] concatenates_S800000_S50000_S850000_d0)) (mulf (Host.gather gather_S50000x64_S850000x1_S850000x64_1_0_n_n_0_1_164 (Host.dotGeneral dot_S50000x128_S128x64_S50000x64_1_0_0_1_n_n none (m ((c.tc : Thread nD τ).loc main_arg1)) (m ((c.tc : Thread nD τ).loc main_arg4))) (broadcastInDim S850000x1 ![0] bcast_S850000_S850000x1_0 (select (cmpi .slt (concatenate S850000 0 [⟨S800000, (shapeCast _ (extractStridedSlice S1x800000 ![0, 0] (m ((c.tc : Thread nD τ).loc main_arg0)) slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] (m ((c.tc : Thread nD τ).loc main_arg0)) slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] (m ((c.tc : Thread nD τ).loc main_arg0)) slices_S2x800000_S1x800000_0_0) shapeCasts_S1x800000_S800000)⟩, ⟨S50000, (iotaInDim S50000 32 0)⟩] concatenates_S800000_S50000_S850000_d0)))) (broadcastInDim S850000x64 ![0, 1] bcast_S850000x1_S850000x64_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg0)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg0)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![0, 0] (m ((c.tc : Thread nD τ).loc main_arg0)) slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] (m ((c.tc : Thread nD τ).loc main_arg0)) slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] (m ((c.tc : Thread nD τ).loc main_arg0)) slices_S2x800000_S1x800000_0_0) shapeCasts_S1x800000_S800000)⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg0)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] (m ((c.tc : Thread nD τ).loc main_arg0)) slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![1, 0] (m ((c.tc : Thread nD τ).loc main_arg0)) slices_S2x800000_S1x800000_1_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![1, 0] (m ((c.tc : Thread nD τ).loc main_arg0)) slices_S2x800000_S1x800000_1_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![1, 0] (m ((c.tc : Thread nD τ).loc main_arg0)) slices_S2x800000_S1x800000_1_0) shapeCasts_S1x800000_S800000)⟩, ⟨S50000, (iotaInDim S50000 32 0)⟩] concatenates_S800000_S50000_S850000_d0))))))))) (broadcastInDim S50000x64 ![0, 1] bcast_S1x64_S50000x64_0_1 (broadcastInDim S1x64 ![1] bcast_S64_S1x64_1 (m ((c.tc : Thread nD τ).loc main_arg5))))

set_option maxRecDepth 8192 in
set_option maxHeartbeats 51600000 in
/-- On every device, from any memory with zero counters: every weakly fair execution of the program terminates with
    the result array at that term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v98).trans (by after_results_simp <;> rfl <;> (unfold result; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's result, read at a node and a channel.

  The reference lists every message once: the 800000 edges first, then one self-loop per node (message `800000 + i` goes
  from node `i` to node `i`). A sum over the 850000 messages that reach node `c` therefore splits into the sum over the edges
  whose target word is `c` and the one loop of `c`. The count of messages into `c` is the edge count plus one, which is
  positive, so the reference's guarded weight is the plain inverse square root; and every message's coefficient is the
  product of its two end nodes' weights.
-/
import proofs.«160902_j66520453480545_2_alg».proof.Proof.RefRun
import proofs.«160902_j66520453480545_2_alg».proof.Proof.LibSegment
import proofs.«160902_j66520453480545_2_alg».proof.Proof.LibRows
import proofs.«160902_j66520453480545_2_alg».proof.Proof.LibColumnStack
import proofs.«160902_j66520453480545_2_alg».proof.Proof.GcnSpec

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.ValueIdx Cert.Lib.Segment Cert.Gcn

/-! ## The reference's stages -/

/-- Every message's source word: the edges' sources, then the nodes' own numbers. -/
def rowVec (ed : IVec S2x800000 32) : S850000.Idx → BitVec 32 :=
  concatenate S850000 0 [⟨S800000, (shapeCast _ (extractStridedSlice S1x800000 ![0, 0] ed slices_S2x800000_S1x800000_0_0) shapeCasts_S1x800000_S800000)⟩, ⟨S50000, (iotaInDim S50000 32 0)⟩] concatenates_S800000_S50000_S850000_d0

/-- Every message's target word: the edges' targets, then the nodes' own numbers. -/
def colVec (ed : IVec S2x800000 32) : S850000.Idx → BitVec 32 :=
  concatenate S850000 0 [⟨S800000, (shapeCast _ (extractStridedSlice S1x800000 ![1, 0] ed slices_S2x800000_S1x800000_1_0) shapeCasts_S1x800000_S800000)⟩, ⟨S50000, (iotaInDim S50000 32 0)⟩] concatenates_S800000_S50000_S850000_d0

/-- Index words wrapped the way a look-up reads them. -/
def wrapVec (v : S850000.Idx → BitVec 32) : S850000.Idx → BitVec 32 :=
  select (cmpi .slt v (broadcastInDim S850000 ![] bcast_S_S850000 (constantI S_ 32 0#32))) (addi v (broadcastInDim S850000 ![] bcast_S_S850000 (constantI S_ 32 50000#32))) v

/-- The number of messages into each node. -/
def degVec (ed : IVec S2x800000 32) : FVec Ideal S50000 .f32 :=
  Host.scatterAdd scatter_S50000_S850000x1_S850000_n_0_0_1 (broadcastInDim S50000 ![] bcast_S_S50000 (constant (F := Ideal) S_ .f32 0x00000000#32)) (broadcastInDim S850000x1 ![0] bcast_S850000_S850000x1_0 (colVec ed)) (broadcastInDim S850000 ![] bcast_S_S850000 (constant (F := Ideal) S_ .f32 0x3F800000#32))

/-- Each node's weight, guarded against an empty count. -/
def wVec (ed : IVec S2x800000 32) : FVec Ideal S50000 .f32 :=
  select (cmpf (F := Ideal) .ogt (degVec ed) (broadcastInDim S50000 ![] bcast_S_S50000 (constant (F := Ideal) S_ .f32 0x00000000#32))) (Host.rsqrt (maximumf (degVec ed) (broadcastInDim S50000 ![] bcast_S_S50000 (constant (F := Ideal) S_ .f32 0x3F800000#32)))) (broadcastInDim S50000 ![] bcast_S_S50000 (id (constant (F := Ideal) S_ .f32 0x00000000#32)))

/-- Each message's coefficient: the weights of its two end nodes multiplied. -/
def coefVec (ed : IVec S2x800000 32) : FVec Ideal S850000 .f32 :=
  mulf (Host.gather gather_S50000_S850000x1_S850000_n_0_n_n_0_1_1 (wVec ed) (broadcastInDim S850000x1 ![0] bcast_S850000_S850000x1_0 (wrapVec (rowVec ed)))) (Host.gather gather_S50000_S850000x1_S850000_n_0_n_n_0_1_1 (wVec ed) (broadcastInDim S850000x1 ![0] bcast_S850000_S850000x1_0 (wrapVec (colVec ed))))

/-- The projected features. -/
def projArr (x : FVec Ideal S50000x128 .f32) (W : FVec Ideal S128x64 .f32) : FVec Ideal S50000x64 .f32 :=
  Host.dotGeneral dot_S50000x128_S128x64_S50000x64_1_0_0_1_n_n none x W

/-- Each message: its source's projected row times its coefficient. -/
def msgArr (ed : IVec S2x800000 32) (x : FVec Ideal S50000x128 .f32) (W : FVec Ideal S128x64 .f32) : FVec Ideal S850000x64 .f32 :=
  mulf (Host.gather gather_S50000x64_S850000x1_S850000x64_1_0_n_n_0_1_164 (projArr x W) (broadcastInDim S850000x1 ![0] bcast_S850000_S850000x1_0 (wrapVec (rowVec ed)))) (broadcastInDim S850000x64 ![0, 1] bcast_S850000x1_S850000x64_0_1 (broadcastInDim S850000x1 ![0] bcast_S850000_S850000x1_0 (coefVec ed)))

/-- The result: the messages added into their targets' rows, plus the bias. -/
def refArr (ed : IVec S2x800000 32) (x : FVec Ideal S50000x128 .f32) (W : FVec Ideal S128x64 .f32) (b : FVec Ideal S64 .f32) :
    FVec Ideal S50000x64 .f32 :=
  addf (Host.scatterAdd scatter_S50000x64_S850000x1_S850000x64_1_0_0_1 (broadcastInDim S50000x64 ![] bcast_S_S50000x64 (constant (F := Ideal) S_ .f32 0x00000000#32)) (broadcastInDim S850000x1 ![0] bcast_S850000_S850000x1_0 (colVec ed)) (msgArr ed x W)) (broadcastInDim S50000x64 ![0, 1] bcast_S1x64_S50000x64_0_1 (broadcastInDim S1x64 ![1] bcast_S64_S1x64_1 b))

/-- The run's result term is these stages composed. -/
theorem result_eq (m : (ℓ : Loc nD τ sig) → Buf (Elt Ideal) ℓ) (c : Dev nD) :
    RefRun.result (F := Ideal) m c = refArr (m ((c.tc : Thread nD τ).loc main_arg0)) (m ((c.tc : Thread nD τ).loc main_arg1))
      (m ((c.tc : Thread nD τ).loc main_arg4)) (m ((c.tc : Thread nD τ).loc main_arg5)) := rfl

/-! ## The message tables, entry by entry -/

theorem rowVec_edge (ed : IVec S2x800000 32) (e : Fin 800000) (h : e.val < 850000) :
    rowVec ed (ix1 (⟨e.val, h⟩ : Fin 850000)) = srcW ed e := by
  unfold rowVec
  refine (concatenate_pair_apply_left (t := S850000) (s₁ := S800000) (s₂ := S50000) (0 : Fin 1) _ _
    concatenates_S800000_S50000_S850000_d0 (ix1 (⟨e.val, h⟩ : Fin 850000)) rfl (ix1 e)
    (fun b => by obtain rfl : b = 0 := Subsingleton.elim _ _; rfl)).trans ?_
  exact tableRow_apply ed (0 : Fin 2) ![0, 0] rfl rfl _ _ e

theorem colVec_edge (ed : IVec S2x800000 32) (e : Fin 800000) (h : e.val < 850000) :
    colVec ed (ix1 (⟨e.val, h⟩ : Fin 850000)) = tgtW ed e := by
  unfold colVec
  refine (concatenate_pair_apply_left (t := S850000) (s₁ := S800000) (s₂ := S50000) (0 : Fin 1) _ _
    concatenates_S800000_S50000_S850000_d0 (ix1 (⟨e.val, h⟩ : Fin 850000)) rfl (ix1 e)
    (fun b => by obtain rfl : b = 0 := Subsingleton.elim _ _; rfl)).trans ?_
  exact tableRow_apply ed (1 : Fin 2) ![1, 0] rfl rfl _ _ e

theorem rowVec_loop (ed : IVec S2x800000 32) (i : Fin 50000) (h : 800000 + i.val < 850000) :
    rowVec ed (ix1 (⟨800000 + i.val, h⟩ : Fin 850000)) = BitVec.ofNat 32 i.val := by
  unfold rowVec
  exact concatenate_pair_apply_right (t := S850000) (s₁ := S800000) (s₂ := S50000) (0 : Fin 1) _ _
    concatenates_S800000_S50000_S850000_d0 (ix1 (⟨800000 + i.val, h⟩ : Fin 850000)) rfl rfl (ix1 i)
    (fun b hb => absurd (Subsingleton.elim _ _) hb) (by show i.val + 800000 = 800000 + i.val; omega)

theorem colVec_loop (ed : IVec S2x800000 32) (i : Fin 50000) (h : 800000 + i.val < 850000) :
    colVec ed (ix1 (⟨800000 + i.val, h⟩ : Fin 850000)) = BitVec.ofNat 32 i.val := by
  unfold colVec
  exact concatenate_pair_apply_right (t := S850000) (s₁ := S800000) (s₂ := S50000) (0 : Fin 1) _ _
    concatenates_S800000_S50000_S850000_d0 (ix1 (⟨800000 + i.val, h⟩ : Fin 850000)) rfl rfl (ix1 i)
    (fun b hb => absurd (Subsingleton.elim _ _) hb) (by show i.val + 800000 = 800000 + i.val; omega)

theorem wrapVec_apply (v : S850000.Idx → BitVec 32) (i : S850000.Idx) : wrapVec v i = wrapW (v i) := rfl

/-- A loop's word names its own node. -/
theorem nodeOf_loop (i : Fin 50000) : nodeOf (BitVec.ofNat 32 i.val) = i :=
  nodeOf_of_toInt (toInt_ofNat_small i.val i.isLt)

/-- A loop's word is node `c`'s number exactly for the loop of `c`. -/
theorem loop_lands (i c : Fin 50000) : (BitVec.ofNat 32 i.val).toInt = (c.val : ℤ) ↔ i = c := by
  rw [toInt_ofNat_small i.val i.isLt]
  constructor
  · intro h; exact Fin.ext (by exact_mod_cast h)
  · rintro rfl; rfl

/-- A column made of a vector reads the vector. -/
theorem col_apply {α : Type} (v : S850000.Idx → α) (j : Fin 850000) (u : Fin 1) :
    broadcastInDim S850000x1 ![0] bcast_S850000_S850000x1_0 v (ix2 j u) = v (ix1 j) :=
  Cert.Lib.ColumnStack.broadcastInDim_column_apply _ _ rfl _ _

/-! ## Counts and weights -/

theorem degDims_eq : scatter_S50000_S850000x1_S850000_n_0_0_1 = scat1 50000 850000 scatter_S50000_S850000x1_S850000_n_0_0_1_wf := rfl

/-- The message count of node `c`: its edges, and its loop. -/
theorem degVec_apply (ed : IVec S2x800000 32) (c : Fin 50000) : degVec ed (ix1 c) = cnt ed c + 1 := by
  unfold degVec
  rw [degDims_eq]
  refine (scatterAdd_vec_apply _ _ _ _ c).trans ?_
  refine (congrArg₂ (· + ·) (zeroVec_apply _ _ _) rfl).trans ((zero_add _).trans ?_)
  refine (sum_fin_split (a := 800000) (b := 50000) rfl _).trans (congrArg₂ (· + ·) ?_ ?_)
  · refine Finset.sum_congr rfl fun e _ => ?_
    rw [col_apply, oneVec_apply, colVec_edge]
  · refine Eq.trans (Finset.sum_congr rfl fun i _ => ?_) ((Finset.sum_ite_eq' Finset.univ c fun _ => (1 : EReal)).trans (if_pos (Finset.mem_univ c)))
    rw [col_apply, oneVec_apply, colVec_loop]
    exact if_congr (loop_lands i c) rfl rfl

theorem degVec_pos (ed : IVec S2x800000 32) (c : Fin 50000) : (0 : EReal) < degVec ed (ix1 c) := by
  rw [degVec_apply]
  exact lt_of_lt_of_le zero_lt_one (le_add_of_nonneg_left (cnt_nonneg ed c))

/-- "Greater than" on the extended reals answers the bit one when it holds. -/
theorem cmp_ogt_of_lt {x y : EReal} (h : y < x) : Ideal.cmp .ogt x y = 1#1 := by
  unfold Ideal.cmp
  simp [h]

theorem dinv_cnt (ed : IVec S2x800000 32) (c : Fin 50000) : dinv ed c = Ideal.rsqrt (max (1 + cnt ed c) 1) := rfl

/-- The guard never fires: the reference's weight is the layer's. -/
theorem wVec_apply (ed : IVec S2x800000 32) (c : Fin 50000) : wVec ed (ix1 c) = dinv ed c := by
  unfold wVec
  refine (select_apply _ _ _ _).trans ?_
  have hbit : cmpf (F := Ideal) .ogt (degVec ed) (broadcastInDim S50000 ![] bcast_S_S50000 (constant (F := Ideal) S_ .f32 0x00000000#32)) (ix1 c) = 1#1 := by
    refine (cmpf_apply _ _ _ _).trans ?_
    rw [zeroVec_apply]
    exact (Ideal.cmpf_def _ _ _).trans (cmp_ogt_of_lt (degVec_pos ed c))
  rw [hbit, select_one]
  refine (rsqrtV_apply _ _).trans ((congrArg Ideal.rsqrt ?_).trans (dinv_cnt ed c).symm)
  refine (maximumf_apply _ _ _).trans (congrArg₂ max ?_ (oneVec_apply _ _ _))
  exact (degVec_apply ed c).trans (add_comm _ _)

/-! ## Coefficients, projected features and messages -/

theorem lookVecDims_eq : gather_S50000_S850000x1_S850000_n_0_n_n_0_1_1
    = gath1 50000 850000 gather_S50000_S850000x1_S850000_n_0_n_n_0_1_1_wf := rfl
theorem lookRowDims_eq : gather_S50000x64_S850000x1_S850000x64_1_0_n_n_0_1_164
    = gath2 50000 64 850000 gather_S50000x64_S850000x1_S850000x64_1_0_n_n_0_1_164_wf := rfl
theorem projDims_eq : dot_S50000x128_S128x64_S50000x64_1_0_0_1_n_n = DotDims.plain 50000 128 64 := rfl
theorem sumDims_eq : scatter_S50000x64_S850000x1_S850000x64_1_0_0_1
    = scat2 50000 64 850000 scatter_S50000x64_S850000x1_S850000x64_1_0_0_1_wf := rfl

/-- A weight looked up at wrapped words is the weight of the node the word names. -/
theorem lookWeight_apply (ed : IVec S2x800000 32) (v : S850000.Idx → BitVec 32) (j : Fin 850000) :
    Host.gather gather_S50000_S850000x1_S850000_n_0_n_n_0_1_1 (wVec ed)
      (broadcastInDim S850000x1 ![0] bcast_S850000_S850000x1_0 (wrapVec v)) (ix1 j) = dinv ed (nodeOf (v (ix1 j))) := by
  rw [lookVecDims_eq]
  refine (gather_vec_apply (by decide) _ _ _ j).trans ?_
  rw [col_apply]
  exact wVec_apply ed _

theorem coefVec_apply (ed : IVec S2x800000 32) (j : Fin 850000) :
    coefVec ed (ix1 j) = dinv ed (nodeOf (rowVec ed (ix1 j))) * dinv ed (nodeOf (colVec ed (ix1 j))) := by
  unfold coefVec
  exact (mulf_apply _ _ _).trans (congrArg₂ (· * ·) (lookWeight_apply ed _ j) (lookWeight_apply ed _ j))

theorem projArr_apply (x : FVec Ideal S50000x128 .f32) (W : FVec Ideal S128x64 .f32) (c : Fin 50000) (k : Fin 64) :
    projArr x W (ix2 c k) = xw x W c k := by
  unfold projArr
  rw [projDims_eq]
  exact StackMember.dotGeneral_plain_apply none x W c k

theorem msgArr_apply (ed : IVec S2x800000 32) (x : FVec Ideal S50000x128 .f32) (W : FVec Ideal S128x64 .f32) (j : Fin 850000) (k : Fin 64) :
    msgArr ed x W (ix2 j k) = xw x W (nodeOf (rowVec ed (ix1 j))) k
      * (dinv ed (nodeOf (rowVec ed (ix1 j))) * dinv ed (nodeOf (colVec ed (ix1 j)))) := by
  unfold msgArr
  refine (mulf_apply _ _ _).trans (congrArg₂ (· * ·) ?_ ?_)
  · rw [lookRowDims_eq]
    refine (gather_rows_apply (by decide) _ _ _ j k).trans ?_
    rw [col_apply]
    exact projArr_apply x W _ k
  · exact (Cert.Lib.Rows.broadcastInDim_a1_ab_apply _ _ j k).trans ((col_apply _ j 0).trans (coefVec_apply ed j))

/-! ## The result -/

/-- The reference's result at node `c`, channel `k` is the layer's output. -/
theorem refArr_apply (ed : IVec S2x800000 32) (x : FVec Ideal S50000x128 .f32) (W : FVec Ideal S128x64 .f32) (b : FVec Ideal S64 .f32)
    (c : Fin 50000) (k : Fin 64) : refArr ed x W b (ix2 c k) = out ed x W b c k := by
  unfold refArr
  refine (addf_apply _ _ _).trans ((congrArg₂ (· + ·) ?_ ?_).trans (messages_eq_out ed x W b c k))
  · rw [sumDims_eq]
    refine (scatterAdd_rows_apply _ _ _ _ c k).trans (congrArg₂ (· + ·) (zeroVec_apply _ _ _) ?_)
    refine (sum_fin_split (a := 800000) (b := 50000) rfl _).trans (congrArg₂ (· + ·) ?_ ?_)
    · refine Finset.sum_congr rfl fun e _ => ?_
      rw [col_apply, msgArr_apply, colVec_edge, rowVec_edge]
    · refine Eq.trans (Finset.sum_congr rfl fun i _ => ?_)
        ((Finset.sum_ite_eq' Finset.univ c fun i => xw x W i k * (dinv ed i * dinv ed i)).trans (if_pos (Finset.mem_univ c)))
      rw [col_apply, msgArr_apply, colVec_loop, rowVec_loop, nodeOf_loop]
      exact if_congr (loop_lands i c) rfl rfl
  · exact (Cert.Lib.Rows.broadcastInDim_1b_ab_apply _ _ c k).trans (Cert.Lib.Rows.broadcastInDim_b_1b_apply _ _ _ k)

/-- The whole result array is the layer's output array. -/
theorem refArr_eq (ed : IVec S2x800000 32) (x : FVec Ideal S50000x128 .f32) (W : FVec Ideal S128x64 .f32) (b : FVec Ideal S64 .f32) :
    refArr ed x W b = outArr ed x W b := by
  funext i
  obtain ⟨c, k, rfl⟩ : ∃ (c : Fin 50000) (k : Fin 64), i = ix2 c k := ⟨i 0, i 1, eq_ix2 i⟩
  exact refArr_apply ed x W b c k

end Cert.ReferenceIdeal.Hand

end
-- ==== Proof.lean ====
/-
  A graph-convolution layer computed two ways.

  The kernel projects the node features in a tiled region, already scaled by each node's weight (the inverse square root
  of its message count), lets every edge carry its source's scaled row to its target, adds each node's own scaled row,
  scales the sums by the target's weight and adds the bias. The reference gives every message — edges and self-loops
  alike — the product of its two end nodes' weights as a coefficient and adds the scaled projected rows per target. On
  the extended reals both are

      out c k = d c · ( ∑_{e : target e = c} d (src e) · xw (src e) k  +  d c · xw c k ) + b k,

  because a node's weight is a finite non-negative number and so distributes over the sum of the messages it receives.
  Nothing of the kernel's text was rewritten by the idealization, so the word-level kernel and the idealized one are one
  program read at two instances.
-/
import proofs.«160902_j66520453480545_2_alg».proof.Defs
import proofs.«160902_j66520453480545_2_alg».proof.Proof.Gen.Kernel
import proofs.«160902_j66520453480545_2_alg».proof.Proof.Gen.Kernel.Skeleton
import proofs.«160902_j66520453480545_2_alg».proof.Proof.Gen.Kernel.Launch
import proofs.«160902_j66520453480545_2_alg».proof.Proof.Gen.Kernel.Points
import proofs.«160902_j66520453480545_2_alg».proof.Proof.Gen.Kernel.Frame
import proofs.«160902_j66520453480545_2_alg».proof.Proof.Gen.KernelIdeal
import proofs.«160902_j66520453480545_2_alg».proof.Proof.Gen.KernelIdeal.Skeleton
import proofs.«160902_j66520453480545_2_alg».proof.Proof.Gen.KernelIdeal.Launch
import proofs.«160902_j66520453480545_2_alg».proof.Proof.Gen.KernelIdeal.Points
import proofs.«160902_j66520453480545_2_alg».proof.Proof.Gen.KernelIdeal.Frame
import proofs.«160902_j66520453480545_2_alg».proof.Proof.Gen.ReferenceIdeal
import proofs.«160902_j66520453480545_2_alg».proof.Proof.Gen.Pre_finite_inputs
import proofs.«160902_j66520453480545_2_alg».proof.Proof.KernelTail
import proofs.«160902_j66520453480545_2_alg».proof.Proof.RefValue
import Idealize.ShloMosaic.Adequacy
import Idealize.ShloMosaic.Init

noncomputable section

namespace Cert.Proof

open Idealize.ShloMosaic Idealize.ShloMosaic.TcCoe Idealize.SL.Sem

/-! ## The kernel's run, with its result named -/

section KernelRun

open Cert.KernelIdeal Cert.KernelIdeal.Gen Cert.KernelIdeal.Hand

/-- Every weakly fair execution of the idealized kernel ends with the result buffer at the layer's output of the
    argument arrays, and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v31) = Cert.Gcn.outArr (edges m c) (feats m c) (wts m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v31 (Pipeline.mem_restRefs_of main_v31 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c)⟩)
    (run_main m ρ)

end KernelRun

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end at the layer's output of the arguments they agree on. -/
theorem algebraic : Cert.algebraic_KernelIdeal_ReferenceIdeal := by
  intro m ρ m' ρ' _ hagree
  refine ⟨fun c => Cert.Gcn.outArr (Cert.KernelIdeal.Hand.edges m c) (Cert.KernelIdeal.Hand.feats m c)
    (Cert.KernelIdeal.Hand.wts m c) (Cert.KernelIdeal.Hand.bias m c), kernel_run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.Hand.result_eq, Cert.ReferenceIdeal.Hand.refArr_eq, (hagree c).1, (hagree c).2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
